-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v182) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x384 : Shape := ⟨2, ![50000, 384]⟩
abbrev S2x200000 : Shape := ⟨2, ![2, 200000]⟩
abbrev S200000 : Shape := ⟨1, ![200000]⟩
abbrev S2x384x384 : Shape := ⟨3, ![2, 384, 384]⟩
abbrev S384x384 : Shape := ⟨2, ![384, 384]⟩
abbrev S384 : Shape := ⟨1, ![384]⟩
abbrev S_ : Shape := ⟨0, ![]⟩

class Facts : Prop where
  bcast_S_S50000x384 : S_.BroadcastsInDim S50000x384 (![] : Fin 0 → Fin S50000x384.rank)
  reducesTo_S50000x384_S_d0_1 : S50000x384.ReducesTo [0, 1] S_
  h_S_ : 0 < S_.numel
  bcast_S_S2x384x384 : S_.BroadcastsInDim S2x384x384 (![] : Fin 0 → Fin S2x384x384.rank)
  reducesTo_S2x384x384_S_d0_1_2 : S2x384x384.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg9 : FVec F S2x384x384 .f32) (main_arg10 : FVec F S384x384 .f32) (main_arg11 : FVec F S384 .f32) (main_v33 : IVec S_ 1) : IVec S_ 1 :=
  let main_v34 : FVec F S2x384x384 .f32 := Host.absf main_arg9
  let main_cst_12 : FVec F S_ .f32 := constant S_ .f32 0x7F800000#32
  let main_v35 : FVec F S2x384x384 .f32 := broadcastInDim S2x384x384 ![] bcast_S_S2x384x384 main_cst_12
  let main_v36 : IVec S2x384x384 1 := cmpf .olt main_v34 main_v35
  let main_c_13 : IVec S_ 1 := constantI S_ 1 1#1
  let main_v37 : IVec S_ 1 := (fun x v => Host.reduce IntOp.andi x v reducesTo_S2x384x384_S_d0_1_2 h_S_) main_v36 main_c_13
  let main_v38 : IVec S_ 1 := andi main_v33 main_v37
  let main_v39 : FVec F S384x384 .f32 := Host.absf main_arg10
  let main_cst_14 : FVec F S_ .f32 := constant S_ .f32 0x7F800000#32
  let main_v40 : FVec F S384x384 .f32 := broadcastInDim S384x384 ![] bcast_S_S384x384 main_cst_14
  let main_v41 : IVec S384x384 1 := cmpf .olt main_v39 main_v40
  let main_c_15 : IVec S_ 1 := constantI S_ 1 1#1
  let main_v42 : IVec S_ 1 := (fun x v => Host.reduce IntOp.andi x v reducesTo_S384x384_S_d0_1 h_S_) main_v41 main_c_15
  let main_v43 : IVec S_ 1 := andi main_v38 main_v42
  let main_v44 : FVec F S384 .f32 := Host.absf main_arg11
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg6 : FVec F S2x384x384 .f32) (main_arg7 : FVec F S384x384 .f32) (main_arg8 : FVec F S384 .f32) (main_arg9 : FVec F S2x384x384 .f32) (main_arg10 : FVec F S384x384 .f32) (main_arg11 : FVec F S384 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S2x384x384 .f32 := Host.absf main_arg6
  let main_cst_6 : FVec F S_ .f32 := constant S_ .f32 0x7F800000#32
  let main_v20 : FVec F S2x384x384 .f32 := broadcastInDim S2x384x384 ![] bcast_S_S2x384x384 main_cst_6
  let main_v21 : IVec S2x384x384 1 := cmpf .olt main_v19 main_v20
  let main_c_7 : IVec S_ 1 := constantI S_ 1 1#1
  let main_v22 : IVec S_ 1 := (fun x v => Host.reduce IntOp.andi x v reducesTo_S2x384x384_S_d0_1_2 h_S_) main_v21 main_c_7
  let main_v23 : IVec S_ 1 := andi main_v18 main_v22
  let main_v24 : FVec F S384x384 .f32 := Host.absf main_arg7
  let main_cst_8 : FVec F S_ .f32 := constant S_ .f32 0x7F800000#32
  let main_v25 : FVec F S384x384 .f32 := broadcastInDim S384x384 ![] bcast_S_S384x384 main_cst_8
  let main_v26 : IVec S384x384 1 := cmpf .olt main_v24 main_v25
  let main_c_9 : IVec S_ 1 := constantI S_ 1 1#1
  let main_v27 : IVec S_ 1 := (fun x v => Host.reduce IntOp.andi x v reducesTo_S384x384_S_d0_1 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg9 main_arg10 main_arg11 main_v33

def fn {F : FTy → Type} [FloatOps F] (main_arg0 : FVec F S50000x384 .f32) (main_arg1 : IVec S2x200000 32) (main_arg2 : IVec S200000 32) (main_arg3 : FVec F S2x384x384 .f32) (main_arg4 : FVec F S384x384 .f32) (main_arg5 : FVec F S384 .f32) (main_arg6 : FVec F S2x384x384 .f32) (main_arg7 : FVec F S384x384 .f32) (main_arg8 : FVec F S384 .f32) (main_arg9 : FVec F S2x384x384 .f32) (main_arg10 : FVec F S384x384 .f32) (main_arg11 : FVec F S384 .f32) : IVec S_ 1 :=
  let main_v0 : FVec F S50000x384 .f32 := Host.absf main_arg0
  let main_cst : FVec F S_ .f32 := constant S_ .f32 0x7F800000#32
  let main_v1 : FVec F S50000x384 .f32 := broadcastInDim S50000x384 ![] bcast_S_S50000x384 main_cst
  let main_v2 : IVec S50000x384 1 := cmpf .olt main_v0 main_v1
  let main_c : IVec S_ 1 := constantI S_ 1 1#1
  let main_v3 : IVec S_ 1 := (fun x v => Host.reduce IntOp.andi x v reducesTo_S50000x384_S_d0_1 h_S_) main_v2 main_c
  let main_v4 : FVec F S2x384x384 .f32 := Host.absf main_arg3
  let main_cst_0 : FVec F S_ .f32 := constant S_ .f32 0x7F800000#32
  let main_v5 : FVec F S2x384x384 .f32 := broadcastInDim S2x384x384 ![] bcast_S_S2x384x384 main_cst_0
  let main_v6 : IVec S2x384x384 1 := cmpf .olt main_v4 main_v5
  let main_c_1 : IVec S_ 1 := constantI S_ 1 1#1
  let main_v7 : IVec S_ 1 := (fun x v => Host.reduce IntOp.andi x v reducesTo_S2x384x384_S_d0_1_2 h_S_) main_v6 main_c_1
  let main_v8 : IVec S_ 1 := andi main_v3 main_v7
  let main_v9 : FVec F S384x384 .f32 := Host.absf main_arg4
  let main_cst_2 : FVec F S_ .f32 := constant S_ .f32 0x7F800000#32
  let main_v10 : FVec F S384x384 .f32 := broadcastInDim S384x384 ![] bcast_S_S384x384 main_cst_2
  let main_v11 : IVec S384x384 1 := cmpf .olt main_v9 main_v10
  let main_c_3 : IVec S_ 1 := constantI S_ 1 1#1
  let main_v12 : IVec S_ 1 := (fun x v => Host.reduce IntOp.andi x v reducesTo_S384x384_S_d0_1 h_S_) main_v11 main_c_3
  let main_v13 : IVec S_ 1 := andi main_v8 main_v12
  let main_v14 : FVec F S384 .f32 := Host.absf main_arg5
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg6 main_arg7 main_arg8 main_arg9 main_arg10 main_arg11 main_v13 main_v16
-- ==== Kernel.lean ====
abbrev S50000x384 : Shape := ⟨2, ![50000, 384]⟩
abbrev S2x200000 : Shape := ⟨2, ![2, 200000]⟩
abbrev S200000 : Shape := ⟨1, ![200000]⟩
abbrev S2x384x384 : Shape := ⟨3, ![2, 384, 384]⟩
abbrev S384x384 : Shape := ⟨2, ![384, 384]⟩
abbrev S384 : Shape := ⟨1, ![384]⟩
abbrev S1x200000 : Shape := ⟨2, ![1, 200000]⟩
abbrev S1x384x384 : Shape := ⟨3, ![1, 384, 384]⟩
abbrev S1x384 : Shape := ⟨2, ![1, 384]⟩
abbrev S2000x384 : Shape := ⟨2, ![2000, 384]⟩
abbrev S_ : Shape := ⟨0, ![]⟩
abbrev S200000x1 : Shape := ⟨2, ![200000, 1]⟩
abbrev S200000x384 : Shape := ⟨2, ![200000, 384]⟩
abbrev S50000 : Shape := ⟨1, ![50000]⟩
abbrev S50000x1 : Shape := ⟨2, ![50000, 1]⟩

abbrev nBuf : Space → Nat
  | .hbm => 241
  | .vmem => 36
  | .smem => 0
  | _ => 0

abbrev hbmTy0_0 (i : Nat) : BufTy := match i % 128 with
  | 0 => ⟨S50000x384, .f32⟩
  | 1 => ⟨S2x200000, .i32⟩
  | 2 => ⟨S200000, .i32⟩
  | 3 => ⟨S2x384x384, .f32⟩
  | 4 => ⟨S384x384, .f32⟩
  | 5 => ⟨S384, .f32⟩
  | 6 => ⟨S2x384x384, .f32⟩
  | 7 => ⟨S384x384, .f32⟩
  | 8 => ⟨S384, .f32⟩
  | 9 => ⟨S2x384x384, .f32⟩
  | 10 => ⟨S384x384, .f32⟩
  | 11 => ⟨S384, .f32⟩
  | 12 => ⟨S1x200000, .i32⟩
  | 13 => ⟨S200000, .i32⟩
  | 14 => ⟨S1x200000, .i32⟩
  | 15 => ⟨S200000, .i32⟩
  | 16 => ⟨S1x384x384, .f32⟩
  | 17 => ⟨S384x384, .f32⟩
  | 18 => ⟨S384x384, .bf16⟩
  | 19 => ⟨S1x384x384, .f32⟩
  | 20 => ⟨S384x384, .f32⟩
  | 21 => ⟨S384x384, .bf16⟩
  | 22 => ⟨S384x384, .bf16⟩
  | 23 => ⟨S1x384, .f32⟩
  | 24 => ⟨S50000x384, .f32⟩
  | 25 => ⟨S50000x384, .f32⟩
  | 26 => ⟨S50000x384, .f32⟩
  | 27 => ⟨S_, .i32⟩
  | 28 => ⟨S200000, .i32⟩
  | 29 => ⟨S200000, .i1⟩
  | 30 => ⟨S200000, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000x384, .f32⟩
  | 40 => ⟨S200000x1, .f32⟩
  | 41 => ⟨S200000x384, .f32⟩
  | 42 => ⟨S200000x384, .f32⟩
  | 43 => ⟨S_, .f32⟩
  | 44 => ⟨S50000x384, .f32⟩
  | 45 => ⟨S200000x1, .i32⟩
  | 46 => ⟨S50000x384, .f32⟩
  | 47 => ⟨S_, .f32⟩
  | 48 => ⟨S50000, .f32⟩
  | 49 => ⟨S200000x1, .i32⟩
  | 50 => ⟨S50000, .f32⟩
  | 51 => ⟨S_, .f32⟩
  | 52 => ⟨S50000, .f32⟩
  | 53 => ⟨S50000, .f32⟩
  | 54 => ⟨S50000x1, .f32⟩
  | 55 => ⟨S50000x384, .f32⟩
  | 56 => ⟨S50000x384, .f32⟩
  | 57 => ⟨S50000x384, .f32⟩
  | 58 => ⟨S_, .i32⟩
  | 59 => ⟨S200000, .i32⟩
  | 60 => ⟨S200000, .i1⟩
  | 61 => ⟨S200000, .f32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000x384, .f32⟩
  | 71 => ⟨S200000x1, .f32⟩
  | 72 => ⟨S200000x384, .f32⟩
  | 73 => ⟨S200000x384, .f32⟩
  | 74 => ⟨S_, .f32⟩
  | 75 => ⟨S50000x384, .f32⟩
  | 76 => ⟨S200000x1, .i32⟩
  | 77 => ⟨S50000x384, .f32⟩
  | 78 => ⟨S_, .f32⟩
  | 79 => ⟨S50000, .f32⟩
  | 80 => ⟨S200000x1, .i32⟩
  | 81 => ⟨S50000, .f32⟩
  | 82 => ⟨S_, .f32⟩
  | 83 => ⟨S50000, .f32⟩
  | 84 => ⟨S50000, .f32⟩
  | 85 => ⟨S50000x1, .f32⟩
  | 86 => ⟨S50000x384, .f32⟩
  | 87 => ⟨S50000x384, .f32⟩
  | 88 => ⟨S50000x384, .f32⟩
  | 89 => ⟨S_, .f32⟩
  | 90 => ⟨S50000x384, .f32⟩
  | 91 => ⟨S50000x384, .f32⟩
  | 92 => ⟨S1x384x384, .f32⟩
  | 93 => ⟨S384x384, .f32⟩
  | 94 => ⟨S384x384, .bf16⟩
  | 95 => ⟨S1x384x384, .f32⟩
  | 96 => ⟨S384x384, .f32⟩
  | 97 => ⟨S384x384, .bf16⟩
  | 98 => ⟨S384x384, .bf16⟩
  | 99 => ⟨S1x384, .f32⟩
  | 100 => ⟨S50000x384, .f32⟩
  | 101 => ⟨S50000x384, .f32⟩
  | 102 => ⟨S50000x384, .f32⟩
  | 103 => ⟨S_, .i32⟩
  | 104 => ⟨S200000, .i32⟩
  | 105 => ⟨S200000, .i1⟩
  | 106 => ⟨S200000, .f32⟩
  | 107 => ⟨S_, .i32⟩
  | 108 => ⟨S200000, .i32⟩
  | 109 => ⟨S200000, .i1⟩
  | 110 => ⟨S_, .i32⟩
  | 111 => ⟨S200000, .i32⟩
  | 112 => ⟨S200000, .i32⟩
  | 113 => ⟨S200000, .i32⟩
  | 114 => ⟨S200000x1, .i32⟩
  | 115 => ⟨S200000x384, .f32⟩
  | 116 => ⟨S200000x1, .f32⟩
  | 117 => ⟨S200000x384, .f32⟩
  | 118 => ⟨S200000x384, .f32⟩
  | 119 => ⟨S_, .f32⟩
  | 120 => ⟨S50000x384, .f32⟩
  | 121 => ⟨S200000x1, .i32⟩
  | 122 => ⟨S50000x384, .f32⟩
  | 123 => ⟨S_, .f32⟩
  | 124 => ⟨S50000, .f32⟩
  | 125 => ⟨S200000x1, .i32⟩
  | 126 => ⟨S50000, .f32⟩
  | 127 => ⟨S_, .f32⟩
  | _ => ⟨S50000x384, .f32⟩

abbrev hbmTy0_1 (i : Nat) : BufTy := match i % 128 with
  | 0 => ⟨S50000, .f32⟩
  | 1 => ⟨S50000, .f32⟩
  | 2 => ⟨S50000x1, .f32⟩
  | 3 => ⟨S50000x384, .f32⟩
  | 4 => ⟨S50000x384, .f32⟩
  | 5 => ⟨S50000x384, .f32⟩
  | 6 => ⟨S_, .i32⟩
  | 7 => ⟨S200000, .i32⟩
  | 8 => ⟨S200000, .i1⟩
  | 9 => ⟨S200000, .f32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x384, .f32⟩
  | 19 => ⟨S200000x1, .f32⟩
  | 20 => ⟨S200000x384, .f32⟩
  | 21 => ⟨S200000x384, .f32⟩
  | 22 => ⟨S_, .f32⟩
  | 23 => ⟨S50000x384, .f32⟩
  | 24 => ⟨S200000x1, .i32⟩
  | 25 => ⟨S50000x384, .f32⟩
  | 26 => ⟨S_, .f32⟩
  | 27 => ⟨S50000, .f32⟩
  | 28 => ⟨S200000x1, .i32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x384, .f32⟩
  | 35 => ⟨S50000x384, .f32⟩
  | 36 => ⟨S50000x384, .f32⟩
  | 37 => ⟨S_, .f32⟩
  | 38 => ⟨S50000x384, .f32⟩
  | 39 => ⟨S50000x384, .f32⟩
  | 40 => ⟨S1x384x384, .f32⟩
  | 41 => ⟨S384x384, .f32⟩
  | 42 => ⟨S384x384, .bf16⟩
  | 43 => ⟨S1x384x384, .f32⟩
  | 44 => ⟨S384x384, .f32⟩
  | 45 => ⟨S384x384, .bf16⟩
  | 46 => ⟨S384x384, .bf16⟩
  | 47 => ⟨S1x384, .f32⟩
  | 48 => ⟨S50000x384, .f32⟩
  | 49 => ⟨S50000x384, .f32⟩
  | 50 => ⟨S50000x384, .f32⟩
  | 51 => ⟨S_, .i32⟩
  | 52 => ⟨S200000, .i32⟩
  | 53 => ⟨S200000, .i1⟩
  | 54 => ⟨S200000, .f32⟩
  | 55 => ⟨S_, .i32⟩
  | 56 => ⟨S200000, .i32⟩
  | 57 => ⟨S200000, .i1⟩
  | 58 => ⟨S_, .i32⟩
  | 59 => ⟨S200000, .i32⟩
  | 60 => ⟨S200000, .i32⟩
  | 61 => ⟨S200000, .i32⟩
  | 62 => ⟨S200000x1, .i32⟩
  | 63 => ⟨S200000x384, .f32⟩
  | 64 => ⟨S200000x1, .f32⟩
  | 65 => ⟨S200000x384, .f32⟩
  | 66 => ⟨S200000x384, .f32⟩
  | 67 => ⟨S_, .f32⟩
  | 68 => ⟨S50000x384, .f32⟩
  | 69 => ⟨S200000x1, .i32⟩
  | 70 => ⟨S50000x384, .f32⟩
  | 71 => ⟨S_, .f32⟩
  | 72 => ⟨S50000, .f32⟩
  | 73 => ⟨S200000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x384, .f32⟩
  | 80 => ⟨S50000x384, .f32⟩
  | 81 => ⟨S50000x384, .f32⟩
  | 82 => ⟨S_, .i32⟩
  | 83 => ⟨S200000, .i32⟩
  | 84 => ⟨S200000, .i1⟩
  | 85 => ⟨S200000, .f32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S200000x384, .f32⟩
  | 95 => ⟨S200000x1, .f32⟩
  | 96 => ⟨S200000x384, .f32⟩
  | 97 => ⟨S200000x384, .f32⟩
  | 98 => ⟨S_, .f32⟩
  | 99 => ⟨S50000x384, .f32⟩
  | 100 => ⟨S200000x1, .i32⟩
  | 101 => ⟨S50000x384, .f32⟩
  | 102 => ⟨S_, .f32⟩
  | 103 => ⟨S50000, .f32⟩
  | 104 => ⟨S200000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x384, .f32⟩
  | 111 => ⟨S50000x384, .f32⟩
  | 112 => ⟨S50000x384, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | .local _ .vmem, ⟨0, _⟩ => ⟨S2000x384, .f32⟩
  | .local _ .vmem, ⟨1, _⟩ => ⟨S2000x384, .f32⟩
  | .local _ .vmem, ⟨2, _⟩ => ⟨S384x384, .bf16⟩
  | .local _ .vmem, ⟨3, _⟩ => ⟨S384x384, .bf16⟩
  | .local _ .vmem, ⟨4, _⟩ => ⟨S384x384, .bf16⟩
  | .local _ .vmem, ⟨5, _⟩ => ⟨S1x384, .f32⟩
  | .local _ .vmem, ⟨6, _⟩ => ⟨S2000x384, .f32⟩
  | .local _ .vmem, ⟨7, _⟩ => ⟨S2000x384, .f32⟩
  | .local _ .vmem, ⟨8, _⟩ => ⟨S2000x384, .f32⟩
  | .local _ .vmem, ⟨9, _⟩ => ⟨S2000x384, .f32⟩
  | .local _ .vmem, ⟨10, _⟩ => ⟨S2000x384, .f32⟩
  | .local _ .vmem, ⟨11, _⟩ => ⟨S2000x384, .f32⟩
  | .local _ .vmem, ⟨12, _⟩ => ⟨S2000x384, .f32⟩
  | .local _ .vmem, ⟨13, _⟩ => ⟨S2000x384, .f32⟩
  | .local _ .vmem, ⟨14, _⟩ => ⟨S384x384, .bf16⟩
  | .local _ .vmem, ⟨15, _⟩ => ⟨S384x384, .bf16⟩
  | .local _ .vmem, ⟨16, _⟩ => ⟨S384x384, .bf16⟩
  | .local _ .vmem, ⟨17, _⟩ => ⟨S1x384, .f32⟩
  | .local _ .vmem, ⟨18, _⟩ => ⟨S2000x384, .f32⟩
  | .local _ .vmem, ⟨19, _⟩ => ⟨S2000x384, .f32⟩
  | .local _ .vmem, ⟨20, _⟩ => ⟨S2000x384, .f32⟩
  | .local _ .vmem, ⟨21, _⟩ => ⟨S2000x384, .f32⟩
  | .local _ .vmem, ⟨22, _⟩ => ⟨S2000x384, .f32⟩
  | .local _ .vmem, ⟨23, _⟩ => ⟨S2000x384, .f32⟩
  | .local _ .vmem, ⟨24, _⟩ => ⟨S2000x384, .f32⟩
  | .local _ .vmem, ⟨25, _⟩ => ⟨S2000x384, .f32⟩
  | .local _ .vmem, ⟨26, _⟩ => ⟨S384x384, .bf16⟩
  | .local _ .vmem, ⟨27, _⟩ => ⟨S384x384, .bf16⟩
  | .local _ .vmem, ⟨28, _⟩ => ⟨S384x384, .bf16⟩
  | .local _ .vmem, ⟨29, _⟩ => ⟨S1x384, .f32⟩
  | .local _ .vmem, ⟨30, _⟩ => ⟨S2000x384, .f32⟩
  | .local _ .vmem, ⟨31, _⟩ => ⟨S2000x384, .f32⟩
  | .local _ .vmem, ⟨32, _⟩ => ⟨S2000x384, .f32⟩
  | .local _ .vmem, ⟨33, _⟩ => ⟨S2000x384, .f32⟩
  | .local _ .vmem, ⟨34, _⟩ => ⟨S2000x384, .f32⟩
  | .local _ .vmem, ⟨35, _⟩ => ⟨S2000x384, .f32⟩
  | _, _ => ⟨S50000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_0 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call0_cst : Ref sig .tc := ⟨.hbm, 89, rfl⟩
abbrev main_call0_v0 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72_0 : Ref sig .tc := ⟨.hbm, 100, rfl⟩
abbrev main_v72_1 : Ref sig .tc := ⟨.hbm, 101, rfl⟩
abbrev main_v72_2 : Ref sig .tc := ⟨.hbm, 102, rfl⟩
abbrev main_c_10 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_11 : Ref sig .tc := ⟨.hbm, 107, rfl⟩
abbrev main_v76 : Ref sig .tc := ⟨.hbm, 108, rfl⟩
abbrev main_v77 : Ref sig .tc := ⟨.hbm, 109, rfl⟩
abbrev main_c_12 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_13 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_14 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_15 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_16 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_17 : Ref sig .tc := ⟨.hbm, 138, rfl⟩
abbrev main_v101 : Ref sig .tc := ⟨.hbm, 139, rfl⟩
abbrev main_v102 : Ref sig .tc := ⟨.hbm, 140, rfl⟩
abbrev main_c_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_19 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_20 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_21 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_call1_cst : Ref sig .tc := ⟨.hbm, 165, rfl⟩
abbrev main_call1_v0 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132_0 : Ref sig .tc := ⟨.hbm, 176, rfl⟩
abbrev main_v132_1 : Ref sig .tc := ⟨.hbm, 177, rfl⟩
abbrev main_v132_2 : Ref sig .tc := ⟨.hbm, 178, rfl⟩
abbrev main_c_22 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_23 : Ref sig .tc := ⟨.hbm, 183, rfl⟩
abbrev main_v136 : Ref sig .tc := ⟨.hbm, 184, rfl⟩
abbrev main_v137 : Ref sig .tc := ⟨.hbm, 185, rfl⟩
abbrev main_c_24 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_25 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_26 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_27 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_28 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_29 : Ref sig .tc := ⟨.hbm, 214, rfl⟩
abbrev main_v161 : Ref sig .tc := ⟨.hbm, 215, rfl⟩
abbrev main_v162 : Ref sig .tc := ⟨.hbm, 216, rfl⟩
abbrev main_c_30 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_cst_31 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_32 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_33 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x384 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S384x384 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x384 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x384 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  slices_S2x384x384_S1x384x384_0_0_0 : S2x384x384.Slices ![0, 0, 0] S1x384x384
  shapeCasts_S1x384x384_S384x384 : S1x384x384.ShapeCasts S384x384
  bitsLt_bf16_f32 : FTy.bits .bf16 < FTy.bits .f32
  slices_S2x384x384_S1x384x384_1_0_0 : S2x384x384.Slices ![1, 0, 0] S1x384x384
  shapeCasts_S384_S1x384 : S384.ShapeCasts S1x384
  inb_S2000x384_S2000x384_0_0 : ∀ a, (![0, 0] : Fin 2 → Nat) a + S2000x384.size a ≤ S2000x384.size a
  h_S2000x384 : 0 < S2000x384.numel
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x384_0_1 : S200000x1.BroadcastsInDim S200000x384 (![0, 1] : Fin 2 → Fin S200000x384.rank)
  bcast_S_S50000x384 : S_.BroadcastsInDim S50000x384 (![] : Fin 0 → Fin S50000x384.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x384_0_1 : S50000x1.BroadcastsInDim S50000x384 (![0, 1] : Fin 2 → Fin S50000x384.rank)
  shapeCasts_S2000x384_S2000x384 : S2000x384.ShapeCasts S2000x384
  dot_S2000x384_S384x384_S2000x384_1_0_0_1_n_n_wf : DotDims.WF S2000x384 S384x384 S2000x384 [1] [0] [0] [1] [] []
  gather_S50000x384_S200000x1_S200000x384_1_0_n_n_0_1_1384_wf : GatherDims.WF S50000x384 S200000x1 S200000x384 [1] [0] [] [0] [] 1 ![1, 384]
  scatter_S50000x384_S200000x1_S200000x384_1_0_0_1_wf : ScatterDims.WF S50000x384 S200000x1 S200000x384 [1] [0] [0] 1
  scatter_S50000_S200000x1_S200000_n_0_0_1_wf : ScatterDims.WF S50000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x384.size a ≤ S50000x384.size a
  hwx0_0 : ∀ i : grid0.Coords, EltTy.bits .f32 = 32 ∨ (Rect.block (s := S50000x384) S2000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .bf16 = 32 ∨ (Rect.block (s := S384x384) S384x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x384.size a ≤ S384x384.size a
  hwx0_2 : ∀ i : grid0.Coords, EltTy.bits .bf16 = 32 ∨ (Rect.block (s := S384x384) S384x384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .bf16 = 32 ∨ (Rect.block (s := S384x384) S384x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S50000x384.size a
  hwx0_5 : ∀ i : grid0.Coords, EltTy.bits .f32 = 32 ∨ (Rect.block (s := S50000x384) S2000x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x384.size a ≤ S50000x384.size a
  hwx0_6 : ∀ i : grid0.Coords, EltTy.bits .f32 = 32 ∨ (Rect.block (s := S50000x384) S2000x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x384.size a ≤ S50000x384.size a
  hwx0_7 : ∀ i : grid0.Coords, EltTy.bits .f32 = 32 ∨ (Rect.block (s := S50000x384) S2000x384.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x384.size a ≤ S50000x384.size a
  hwx1_0 : ∀ i : grid1.Coords, EltTy.bits .f32 = 32 ∨ (Rect.block (s := S50000x384) S2000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x384.size a ≤ S384x384.size a
  hwx1_1 : ∀ i : grid1.Coords, EltTy.bits .bf16 = 32 ∨ (Rect.block (s := S384x384) S384x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S384x384.size a ≤ S384x384.size a
  hwx1_2 : ∀ i : grid1.Coords, EltTy.bits .bf16 = 32 ∨ (Rect.block (s := S384x384) S384x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384x384.size a ≤ S384x384.size a
  hwx1_3 : ∀ i : grid1.Coords, EltTy.bits .bf16 = 32 ∨ (Rect.block (s := S384x384) S384x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x384.size a ≤ S50000x384.size a
  hwx1_5 : ∀ i : grid1.Coords, EltTy.bits .f32 = 32 ∨ (Rect.block (s := S50000x384) S2000x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x384.size a ≤ S50000x384.size a
  hwx1_6 : ∀ i : grid1.Coords, EltTy.bits .f32 = 32 ∨ (Rect.block (s := S50000x384) S2000x384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x384.size a ≤ S50000x384.size a
  hwx1_7 : ∀ i : grid1.Coords, EltTy.bits .f32 = 32 ∨ (Rect.block (s := S50000x384) S2000x384.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x384.size a ≤ S50000x384.size a
  hwx2_0 : ∀ i : grid2.Coords, EltTy.bits .f32 = 32 ∨ (Rect.block (s := S50000x384) S2000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x384.size a ≤ S384x384.size a
  hwx2_1 : ∀ i : grid2.Coords, EltTy.bits .bf16 = 32 ∨ (Rect.block (s := S384x384) S384x384.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S384x384.size a ≤ S384x384.size a
  hwx2_2 : ∀ i : grid2.Coords, EltTy.bits .bf16 = 32 ∨ (Rect.block (s := S384x384) S384x384.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x384.size a ≤ S384x384.size a
  hwx2_3 : ∀ i : grid2.Coords, EltTy.bits .bf16 = 32 ∨ (Rect.block (s := S384x384) S384x384.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x384.size a ≤ S50000x384.size a
  hwx2_5 : ∀ i : grid2.Coords, EltTy.bits .f32 = 32 ∨ (Rect.block (s := S50000x384) S2000x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x384.size a ≤ S50000x384.size a
  hwx2_6 : ∀ i : grid2.Coords, EltTy.bits .f32 = 32 ∨ (Rect.block (s := S50000x384) S2000x384.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x384.size a ≤ S50000x384.size a
  hwx2_7 : ∀ i : grid2.Coords, EltTy.bits .f32 = 32 ∨ (Rect.block (s := S50000x384) S2000x384.size (cc2_transform_7 i) (hinb2_7 i)).WholeWords (EltTy.packing .f32)

variable [Facts₀]

def dot_S2000x384_S384x384_S2000x384_1_0_0_1_n_n : DotDims S2000x384 S384x384 S2000x384 where
  lhsContracting := [1]
  rhsContracting := [0]
  lhsNonContracting := [0]
  rhsNonContracting := [1]
  lhsBatch := []
  rhsBatch := []
  wf := dot_S2000x384_S384x384_S2000x384_1_0_0_1_n_n_wf
def gather_S50000x384_S200000x1_S200000x384_1_0_n_n_0_1_1384 : GatherDims S50000x384 S200000x1 S200000x384 where
  offsetDims := [1]
  collapsedSliceDims := [0]
  operandBatchingDims := []
  startIndicesBatchingDims := []
  startIndexMap := [0]
  indexVectorDim := 1
  sliceSizes := ![1, 384]
  wf := gather_S50000x384_S200000x1_S200000x384_1_0_n_n_0_1_1384_wf
def scatter_S50000x384_S200000x1_S200000x384_1_0_0_1 : ScatterDims S50000x384 S200000x1 S200000x384 where
  updateWindowDims := [1]
  insertedWindowDims := [0]
  scatterDimsToOperandDims := [0]
  indexVectorDim := 1
  wf := scatter_S50000x384_S200000x1_S200000x384_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

abbrev win0_0 : Pipeline.Window sig grid0 :=
  Pipeline.Window.ofSpec (Memref.whole main_arg0) S2000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S384x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S2000x384.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S2000x384.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S2000x384.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v63) S2000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S384x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69) S384x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v70) S384x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72_0) S2000x384.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v72_1) S2000x384.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v72_2) S2000x384.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v123) S2000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S384x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v129) S384x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v130) S384x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v131) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v132_0) S2000x384.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v132_1) S2000x384.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v132_2) S2000x384.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x384 : Shape := ⟨2, ![50000, 384]⟩
abbrev S2x200000 : Shape := ⟨2, ![2, 200000]⟩
abbrev S200000 : Shape := ⟨1, ![200000]⟩
abbrev S2x384x384 : Shape := ⟨3, ![2, 384, 384]⟩
abbrev S384x384 : Shape := ⟨2, ![384, 384]⟩
abbrev S384 : Shape := ⟨1, ![384]⟩
abbrev S1x200000 : Shape := ⟨2, ![1, 200000]⟩
abbrev S1x384 : Shape := ⟨2, ![1, 384]⟩
abbrev S1x384x384 : Shape := ⟨3, ![1, 384, 384]⟩
abbrev S_ : Shape := ⟨0, ![]⟩
abbrev S200000x1 : Shape := ⟨2, ![200000, 1]⟩
abbrev S200000x384 : Shape := ⟨2, ![200000, 384]⟩
abbrev S50000 : Shape := ⟨1, ![50000]⟩
abbrev S50000x1 : Shape := ⟨2, ![50000, 1]⟩

abbrev nBuf : Space → Nat
  | .hbm => 238
  | .vmem => 0
  | .smem => 0
  | _ => 0

abbrev hbmTy0_0 (i : Nat) : BufTy := match i % 128 with
  | 0 => ⟨S50000x384, .f32⟩
  | 1 => ⟨S2x200000, .i32⟩
  | 2 => ⟨S200000, .i32⟩
  | 3 => ⟨S2x384x384, .f32⟩
  | 4 => ⟨S384x384, .f32⟩
  | 5 => ⟨S384, .f32⟩
  | 6 => ⟨S2x384x384, .f32⟩
  | 7 => ⟨S384x384, .f32⟩
  | 8 => ⟨S384, .f32⟩
  | 9 => ⟨S2x384x384, .f32⟩
  | 10 => ⟨S384x384, .f32⟩
  | 11 => ⟨S384, .f32⟩
  | 12 => ⟨S1x200000, .i32⟩
  | 13 => ⟨S200000, .i32⟩
  | 14 => ⟨S1x200000, .i32⟩
  | 15 => ⟨S200000, .i32⟩
  | 16 => ⟨S50000x384, .f32⟩
  | 17 => ⟨S1x384, .f32⟩
  | 18 => ⟨S50000x384, .f32⟩
  | 19 => ⟨S50000x384, .f32⟩
  | 20 => ⟨S1x384x384, .f32⟩
  | 21 => ⟨S384x384, .f32⟩
  | 22 => ⟨S50000x384, .f32⟩
  | 23 => ⟨S_, .i32⟩
  | 24 => ⟨S200000, .i32⟩
  | 25 => ⟨S200000, .i1⟩
  | 26 => ⟨S200000, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x384, .f32⟩
  | 36 => ⟨S200000x1, .f32⟩
  | 37 => ⟨S200000x384, .f32⟩
  | 38 => ⟨S200000x384, .f32⟩
  | 39 => ⟨S_, .f32⟩
  | 40 => ⟨S50000x384, .f32⟩
  | 41 => ⟨S200000x1, .i32⟩
  | 42 => ⟨S50000x384, .f32⟩
  | 43 => ⟨S_, .f32⟩
  | 44 => ⟨S50000, .f32⟩
  | 45 => ⟨S200000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x384, .f32⟩
  | 52 => ⟨S50000x384, .f32⟩
  | 53 => ⟨S50000x384, .f32⟩
  | 54 => ⟨S1x384x384, .f32⟩
  | 55 => ⟨S384x384, .f32⟩
  | 56 => ⟨S50000x384, .f32⟩
  | 57 => ⟨S_, .i32⟩
  | 58 => ⟨S200000, .i32⟩
  | 59 => ⟨S200000, .i1⟩
  | 60 => ⟨S200000, .f32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x384, .f32⟩
  | 70 => ⟨S200000x1, .f32⟩
  | 71 => ⟨S200000x384, .f32⟩
  | 72 => ⟨S200000x384, .f32⟩
  | 73 => ⟨S_, .f32⟩
  | 74 => ⟨S50000x384, .f32⟩
  | 75 => ⟨S200000x1, .i32⟩
  | 76 => ⟨S50000x384, .f32⟩
  | 77 => ⟨S_, .f32⟩
  | 78 => ⟨S50000, .f32⟩
  | 79 => ⟨S200000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x384, .f32⟩
  | 86 => ⟨S50000x384, .f32⟩
  | 87 => ⟨S50000x384, .f32⟩
  | 88 => ⟨S_, .f32⟩
  | 89 => ⟨S50000x384, .f32⟩
  | 90 => ⟨S50000x384, .f32⟩
  | 91 => ⟨S50000x384, .f32⟩
  | 92 => ⟨S1x384, .f32⟩
  | 93 => ⟨S50000x384, .f32⟩
  | 94 => ⟨S50000x384, .f32⟩
  | 95 => ⟨S1x384x384, .f32⟩
  | 96 => ⟨S384x384, .f32⟩
  | 97 => ⟨S50000x384, .f32⟩
  | 98 => ⟨S_, .i32⟩
  | 99 => ⟨S200000, .i32⟩
  | 100 => ⟨S200000, .i1⟩
  | 101 => ⟨S200000, .f32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S200000x384, .f32⟩
  | 111 => ⟨S200000x1, .f32⟩
  | 112 => ⟨S200000x384, .f32⟩
  | 113 => ⟨S200000x384, .f32⟩
  | 114 => ⟨S_, .f32⟩
  | 115 => ⟨S50000x384, .f32⟩
  | 116 => ⟨S200000x1, .i32⟩
  | 117 => ⟨S50000x384, .f32⟩
  | 118 => ⟨S_, .f32⟩
  | 119 => ⟨S50000, .f32⟩
  | 120 => ⟨S200000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x384, .f32⟩
  | 127 => ⟨S50000x384, .f32⟩
  | _ => ⟨S50000x384, .f32⟩

abbrev hbmTy0_1 (i : Nat) : BufTy := match i % 128 with
  | 0 => ⟨S50000x384, .f32⟩
  | 1 => ⟨S1x384x384, .f32⟩
  | 2 => ⟨S384x384, .f32⟩
  | 3 => ⟨S50000x384, .f32⟩
  | 4 => ⟨S_, .i32⟩
  | 5 => ⟨S200000, .i32⟩
  | 6 => ⟨S200000, .i1⟩
  | 7 => ⟨S200000, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000x384, .f32⟩
  | 17 => ⟨S200000x1, .f32⟩
  | 18 => ⟨S200000x384, .f32⟩
  | 19 => ⟨S200000x384, .f32⟩
  | 20 => ⟨S_, .f32⟩
  | 21 => ⟨S50000x384, .f32⟩
  | 22 => ⟨S200000x1, .i32⟩
  | 23 => ⟨S50000x384, .f32⟩
  | 24 => ⟨S_, .f32⟩
  | 25 => ⟨S50000, .f32⟩
  | 26 => ⟨S200000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x384, .f32⟩
  | 33 => ⟨S50000x384, .f32⟩
  | 34 => ⟨S50000x384, .f32⟩
  | 35 => ⟨S_, .f32⟩
  | 36 => ⟨S50000x384, .f32⟩
  | 37 => ⟨S50000x384, .f32⟩
  | 38 => ⟨S50000x384, .f32⟩
  | 39 => ⟨S1x384, .f32⟩
  | 40 => ⟨S50000x384, .f32⟩
  | 41 => ⟨S50000x384, .f32⟩
  | 42 => ⟨S1x384x384, .f32⟩
  | 43 => ⟨S384x384, .f32⟩
  | 44 => ⟨S50000x384, .f32⟩
  | 45 => ⟨S_, .i32⟩
  | 46 => ⟨S200000, .i32⟩
  | 47 => ⟨S200000, .i1⟩
  | 48 => ⟨S200000, .f32⟩
  | 49 => ⟨S_, .i32⟩
  | 50 => ⟨S200000, .i32⟩
  | 51 => ⟨S200000, .i1⟩
  | 52 => ⟨S_, .i32⟩
  | 53 => ⟨S200000, .i32⟩
  | 54 => ⟨S200000, .i32⟩
  | 55 => ⟨S200000, .i32⟩
  | 56 => ⟨S200000x1, .i32⟩
  | 57 => ⟨S200000x384, .f32⟩
  | 58 => ⟨S200000x1, .f32⟩
  | 59 => ⟨S200000x384, .f32⟩
  | 60 => ⟨S200000x384, .f32⟩
  | 61 => ⟨S_, .f32⟩
  | 62 => ⟨S50000x384, .f32⟩
  | 63 => ⟨S200000x1, .i32⟩
  | 64 => ⟨S50000x384, .f32⟩
  | 65 => ⟨S_, .f32⟩
  | 66 => ⟨S50000, .f32⟩
  | 67 => ⟨S200000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x384, .f32⟩
  | 74 => ⟨S50000x384, .f32⟩
  | 75 => ⟨S50000x384, .f32⟩
  | 76 => ⟨S1x384x384, .f32⟩
  | 77 => ⟨S384x384, .f32⟩
  | 78 => ⟨S50000x384, .f32⟩
  | 79 => ⟨S_, .i32⟩
  | 80 => ⟨S200000, .i32⟩
  | 81 => ⟨S200000, .i1⟩
  | 82 => ⟨S200000, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x384, .f32⟩
  | 92 => ⟨S200000x1, .f32⟩
  | 93 => ⟨S200000x384, .f32⟩
  | 94 => ⟨S200000x384, .f32⟩
  | 95 => ⟨S_, .f32⟩
  | 96 => ⟨S50000x384, .f32⟩
  | 97 => ⟨S200000x1, .i32⟩
  | 98 => ⟨S50000x384, .f32⟩
  | 99 => ⟨S_, .f32⟩
  | 100 => ⟨S50000, .f32⟩
  | 101 => ⟨S200000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x384, .f32⟩
  | 108 => ⟨S50000x384, .f32⟩
  | 109 => ⟨S50000x384, .f32⟩
  | _ => ⟨S50000x384, .f32⟩

abbrev hbmTy (i : Nat) : BufTy := match i / 128 with
  | 0 => hbmTy0_0 i
  | 1 => hbmTy0_1 i
  | _ => ⟨S50000x384, .f32⟩

abbrev bufTy : (tb : Table) → Fin (tcTables nBuf tb) → BufTy
  | .hbm, ⟨i, _⟩ => hbmTy i
  | _, _ => ⟨S50000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_5 : Ref sig .tc := ⟨.hbm, 61, rfl⟩
abbrev main_v42 : Ref sig .tc := ⟨.hbm, 62, rfl⟩
abbrev main_v43 : Ref sig .tc := ⟨.hbm, 63, rfl⟩
abbrev main_c_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call0_cst : Ref sig .tc := ⟨.hbm, 88, rfl⟩
abbrev main_call0_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_11 : Ref sig .tc := ⟨.hbm, 102, rfl⟩
abbrev main_v75 : Ref sig .tc := ⟨.hbm, 103, rfl⟩
abbrev main_v76 : Ref sig .tc := ⟨.hbm, 104, rfl⟩
abbrev main_c_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_13 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_15 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_c_16 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_17 : Ref sig .tc := ⟨.hbm, 136, rfl⟩
abbrev main_v103 : Ref sig .tc := ⟨.hbm, 137, rfl⟩
abbrev main_v104 : Ref sig .tc := ⟨.hbm, 138, rfl⟩
abbrev main_c_18 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_20 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_21 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call1_cst : Ref sig .tc := ⟨.hbm, 163, rfl⟩
abbrev main_call1_v0 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_c_22 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_23 : Ref sig .tc := ⟨.hbm, 177, rfl⟩
abbrev main_v136 : Ref sig .tc := ⟨.hbm, 178, rfl⟩
abbrev main_v137 : Ref sig .tc := ⟨.hbm, 179, rfl⟩
abbrev main_c_24 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_25 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_26 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_cst_27 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_c_28 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_c_29 : Ref sig .tc := ⟨.hbm, 211, rfl⟩
abbrev main_v164 : Ref sig .tc := ⟨.hbm, 212, rfl⟩
abbrev main_v165 : Ref sig .tc := ⟨.hbm, 213, rfl⟩
abbrev main_c_30 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_31 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_32 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_33 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S2x384x384_S1x384x384_0_0_0 : S2x384x384.Slices ![0, 0, 0] S1x384x384
  shapeCasts_S1x384x384_S384x384 : S1x384x384.ShapeCasts S384x384
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x384_0_1 : S200000x1.BroadcastsInDim S200000x384 (![0, 1] : Fin 2 → Fin S200000x384.rank)
  bcast_S_S50000x384 : S_.BroadcastsInDim S50000x384 (![] : Fin 0 → Fin S50000x384.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x384_0_1 : S50000x1.BroadcastsInDim S50000x384 (![0, 1] : Fin 2 → Fin S50000x384.rank)
  slices_S2x384x384_S1x384x384_1_0_0 : S2x384x384.Slices ![1, 0, 0] S1x384x384
  dot_S50000x384_S384x384_S50000x384_1_0_0_1_n_n_wf : DotDims.WF S50000x384 S384x384 S50000x384 [1] [0] [0] [1] [] []
  gather_S50000x384_S200000x1_S200000x384_1_0_n_n_0_1_1384_wf : GatherDims.WF S50000x384 S200000x1 S200000x384 [1] [0] [] [0] [] 1 ![1, 384]
  scatter_S50000x384_S200000x1_S200000x384_1_0_0_1_wf : ScatterDims.WF S50000x384 S200000x1 S200000x384 [1] [0] [0] 1
  scatter_S50000_S200000x1_S200000_n_0_0_1_wf : ScatterDims.WF S50000 S200000x1 S200000 [] [0] [0] 1

variable [Facts₀]

def dot_S50000x384_S384x384_S50000x384_1_0_0_1_n_n : DotDims S50000x384 S384x384 S50000x384 where
  lhsContracting := [1]
  rhsContracting := [0]
  lhsNonContracting := [0]
  rhsNonContracting := [1]
  lhsBatch := []
  rhsBatch := []
  wf := dot_S50000x384_S384x384_S50000x384_1_0_0_1_n_n_wf
def gather_S50000x384_S200000x1_S200000x384_1_0_n_n_0_1_1384 : GatherDims S50000x384 S200000x1 S200000x384 where
  offsetDims := [1]
  collapsedSliceDims := [0]
  operandBatchingDims := []
  startIndicesBatchingDims := []
  startIndexMap := [0]
  indexVectorDim := 1
  sliceSizes := ![1, 384]
  wf := gather_S50000x384_S200000x1_S200000x384_1_0_n_n_0_1_1384_wf
def scatter_S50000x384_S200000x1_S200000x384_1_0_0_1 : ScatterDims S50000x384 S200000x1 S200000x384 where
  updateWindowDims := [1]
  insertedWindowDims := [0]
  scatterDimsToOperandDims := [0]
  indexVectorDim := 1
  wf := scatter_S50000x384_S200000x1_S200000x384_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

class Facts : Prop extends Facts₀ where

variable [Facts]
-- ==== Proof.KernelRun.lean ====
/-
  The kernel's run with its result read.

  The program is eleven segments: a stretch of host operations, a launch of the row-blocked products, a stretch (the
  aggregation), … three launches in all. Its buffers' contents at each boundary are a fold from the launch memory
  (`Gen.W0` … `Gen.W11`): a host stretch rewrites the buffers its operations write, a launch leaves its arrays at what its
  write-backs make of them and every other buffer alone. The run through all segments ends with every unscoped buffer
  at the last boundary's contents; read here are the result buffer and the twelve arguments (which no segment writes).
-/
import proofs.«109699_j90933047591155_1_alg».proof.Proof.Gen.KernelIdeal.Frame

set_option maxRecDepth 16384

noncomputable section

namespace Cert.Rgcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v182) = W11 m ρ c (Proc.devRef .tc main_v182)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v182 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.Rgcn.KernelRun

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.Spec.lean ====
/-
  A relational graph convolution with mean aggregation, as both programs compute it.

  One layer takes node features `x : [50000, 384]`, two relation weights `W r : [384, 384]`, a root weight and a bias, and
  an edge list (source row, target row, relation of each of the 200000 edges):

      out = x · root + bias + Σ_{r = 0, 1}  (Σ_{edges e of relation r into node n} (x · W r)[src e]) / max(#edges of relation r into n, 1).

  The three products are where the two programs differ in form (blocks of 2000 rows on one side, one whole product on
  the other); everything after them — the relation mask, a negative source index counted from the end, the row gather,
  the scatter-add of the masked rows, the count, the maximum with one, the quotient and the two sums — is the SAME
  composition of operations of the three products and the edge list on both sides. That common part is `mix` below; it is
  stated once and never opened: the two programs agree because its three arguments agree.

  A product is read one entry at a time: entry `(p, q)` is the sum over `k < 384` of `x (p, k) * w (k, q)` on the
  extended reals (`rowCol`), whatever the blocking of the rows.
-/
import proofs.«109699_j90933047591155_1_alg».proof.Proof.Gen.KernelIdeal
import proofs.«109699_j90933047591155_1_alg».proof.Proof.LibPlainDot

noncomputable section

namespace Cert.Rgcn

open Idealize.ShloMosaic Idealize.ShloMosaic.ValueIdx Cert.KernelIdeal Cert.KernelIdeal.Facts₀

variable {F : FTy → Type} [FloatOps F]

/-! ## The part both programs share: from the three products of a layer to the layer's output -/

/-- A source row below zero counts from the end: `i < 0 ? i + 50000 : i`. -/
def wrapRow (src : (⟨S200000, .i32⟩ : BufTy).Contents (Elt F)) : (⟨S200000, .i32⟩ : BufTy).Contents (Elt F) :=
  select (cmpi .slt src (broadcastInDim S200000 ![] bcast_S_S200000 (constantI S_ 32 0#32)))
    (addi src (broadcastInDim S200000 ![] bcast_S_S200000 (constantI S_ 32 50000#32))) src

/-- The edges of relation `r`, as ones and zeros. -/
def relMask (r : BitVec 32) (et : (⟨S200000, .i32⟩ : BufTy).Contents (Elt F)) : (⟨S200000, .f32⟩ : BufTy).Contents (Elt F) :=
  uitofp .f32 (cmpi .eq et (broadcastInDim S200000 ![] bcast_S_S200000 (constantI S_ 32 r)))

/-- One relation's mean over incoming edges: the masked source rows of `xr` added up per target row, over the number
    of such edges (at least one). -/
def relMean (xr : (⟨S50000x384, .f32⟩ : BufTy).Contents (Elt F)) (src dst : (⟨S200000, .i32⟩ : BufTy).Contents (Elt F))
    (mk : (⟨S200000, .f32⟩ : BufTy).Contents (Elt F)) : (⟨S50000x384, .f32⟩ : BufTy).Contents (Elt F) :=
  Host.divf
    (Host.scatterAdd scatter_S50000x384_S200000x1_S200000x384_1_0_0_1
      (broadcastInDim S50000x384 ![] bcast_S_S50000x384 (constant S_ .f32 0x00000000#32))
      (broadcastInDim S200000x1 ![0] bcast_S200000_S200000x1_0 dst)
      (mulf
        (Host.gather gather_S50000x384_S200000x1_S200000x384_1_0_n_n_0_1_1384 xr
          (broadcastInDim S200000x1 ![0] bcast_S200000_S200000x1_0 (wrapRow src)))
        (broadcastInDim S200000x384 ![0, 1] bcast_S200000x1_S200000x384_0_1
          (broadcastInDim S200000x1 ![0] bcast_S200000_S200000x1_0 mk))))
    (broadcastInDim S50000x384 ![0, 1] bcast_S50000x1_S50000x384_0_1
      (broadcastInDim S50000x1 ![0] bcast_S50000_S50000x1_0
        (maximumf
          (Host.scatterAdd scatter_S50000_S200000x1_S200000_n_0_0_1
            (broadcastInDim S50000 ![] bcast_S_S50000 (constant S_ .f32 0x00000000#32))
            (broadcastInDim S200000x1 ![0] bcast_S200000_S200000x1_0 dst) mk)
          (broadcastInDim S50000 ![] bcast_S_S50000 (constant S_ .f32 0x3F800000#32)))))

/-- A layer's output from its three products: the root term plus the two relations' means, in that order. -/
def mix (xr0 xr1 ro : (⟨S50000x384, .f32⟩ : BufTy).Contents (Elt F)) (src dst et : (⟨S200000, .i32⟩ : BufTy).Contents (Elt F)) :
    (⟨S50000x384, .f32⟩ : BufTy).Contents (Elt F) :=
  addf (addf ro (relMean xr0 src dst (relMask 0#32 et))) (relMean xr1 src dst (relMask 1#32 et))

/-- The rectifier between layers: the maximum with zero. -/
def rect (x : (⟨S50000x384, .f32⟩ : BufTy).Contents (Elt F)) : (⟨S50000x384, .f32⟩ : BufTy).Contents (Elt F) :=
  maximumf x (broadcastInDim S50000x384 ![] bcast_S_S50000x384 (constant S_ .f32 0x00000000#32))

/-- The source rows and the target rows of the edge list. -/
def srcOf (ei : (⟨S2x200000, .i32⟩ : BufTy).Contents (Elt F)) : (⟨S200000, .i32⟩ : BufTy).Contents (Elt F) :=
  shapeCast _ (extractStridedSlice S1x200000 ![0, 0] ei slices_S2x200000_S1x200000_0_0) shapeCasts_S1x200000_S200000
def dstOf (ei : (⟨S2x200000, .i32⟩ : BufTy).Contents (Elt F)) : (⟨S200000, .i32⟩ : BufTy).Contents (Elt F) :=
  shapeCast _ (extractStridedSlice S1x200000 ![1, 0] ei slices_S2x200000_S1x200000_1_0) shapeCasts_S1x200000_S200000

/-- Relation `0`'s and relation `1`'s weight matrix out of the stacked pair. -/
def relW0 (W : (⟨S2x384x384, .f32⟩ : BufTy).Contents (Elt F)) : (⟨S384x384, .f32⟩ : BufTy).Contents (Elt F) :=
  shapeCast _ (extractStridedSlice S1x384x384 ![0, 0, 0] W slices_S2x384x384_S1x384x384_0_0_0) shapeCasts_S1x384x384_S384x384
def relW1 (W : (⟨S2x384x384, .f32⟩ : BufTy).Contents (Elt F)) : (⟨S384x384, .f32⟩ : BufTy).Contents (Elt F) :=
  shapeCast _ (extractStridedSlice S1x384x384 ![1, 0, 0] W slices_S2x384x384_S1x384x384_1_0_0) shapeCasts_S1x384x384_S384x384

/-! ## A product, entry by entry, on the extended reals -/

/-- Row `p` of `x` against column `q` of `w`. -/
def rowCol (x : S50000x384.Idx → EReal) (w : S384x384.Idx → EReal) (p : Fin 50000) (q : Fin 384) : EReal :=
  ∑ k : Fin 384, x (ix2 p k) * w (ix2 k q)

/-- The product `x · w` as one array. -/
def prod (x : S50000x384.Idx → EReal) (w : S384x384.Idx → EReal) : S50000x384.Idx → EReal :=
  fun j => rowCol x w (j 0) (j 1)

/-- The product `x · w` plus the bias row `b` on every row. -/
def prodBias (x : S50000x384.Idx → EReal) (w : S384x384.Idx → EReal) (b : S1x384.Idx → EReal) : S50000x384.Idx → EReal :=
  fun j => rowCol x w (j 0) (j 1) + b (ix2 (0 : Fin 1) (j 1))

/-- One layer with the products taken entry by entry: what the blocked kernel leaves, and what the whole products are. -/
def layer (x : S50000x384.Idx → EReal) (W : (⟨S2x384x384, .f32⟩ : BufTy).Contents (Elt Ideal))
    (root : S384x384.Idx → EReal) (bias : S384.Idx → EReal) (ei : (⟨S2x200000, .i32⟩ : BufTy).Contents (Elt Ideal))
    (et : (⟨S200000, .i32⟩ : BufTy).Contents (Elt Ideal)) : (⟨S50000x384, .f32⟩ : BufTy).Contents (Elt Ideal) :=
  mix (F := Ideal) (prod x (relW0 (F := Ideal) W)) (prod x (relW1 (F := Ideal) W))
    (prodBias x root (shapeCast S1x384 bias shapeCasts_S384_S1x384)) (srcOf (F := Ideal) ei) (dstOf (F := Ideal) ei) et

/-- The three layers, a rectifier after the first and after the second. -/
def net (x : S50000x384.Idx → EReal) (ei : (⟨S2x200000, .i32⟩ : BufTy).Contents (Elt Ideal)) (et : (⟨S200000, .i32⟩ : BufTy).Contents (Elt Ideal))
    (W1 : (⟨S2x384x384, .f32⟩ : BufTy).Contents (Elt Ideal)) (root1 : S384x384.Idx → EReal) (bias1 : S384.Idx → EReal)
    (W2 : (⟨S2x384x384, .f32⟩ : BufTy).Contents (Elt Ideal)) (root2 : S384x384.Idx → EReal) (bias2 : S384.Idx → EReal)
    (W3 : (⟨S2x384x384, .f32⟩ : BufTy).Contents (Elt Ideal)) (root3 : S384x384.Idx → EReal) (bias3 : S384.Idx → EReal) :
    (⟨S50000x384, .f32⟩ : BufTy).Contents (Elt Ideal) :=
  layer (rect (F := Ideal) (layer (rect (F := Ideal) (layer x W1 root1 bias1 ei et)) W2 root2 bias2 ei et)) W3 root3 bias3 ei et

end Cert.Rgcn

end
-- ==== Proof.BlockProd.lean ====
/-
  Rows of a product, block by block.

  A block of 2000 rows of `x`, multiplied by the whole weight matrix, is the same 2000 rows of the product `x · w`: entry
  `(p, q)` of the block product is the sum over `k` of the block's `(p, k)` entry times `w (k, q)`, the block's row `p` is
  row `b * 2000 + p` of `x`, and the output block sits at the same rows. Stated here over the maps that place a block's
  index in its array (`ex` for the input rows, `eo` for the output rows, `ew` / `eb` for the weight and the bias, which are
  one block each), with what those maps do to the two coordinates as hypotheses.
-/
import proofs.«109699_j90933047591155_1_alg».proof.Proof.Spec

noncomputable section

namespace Cert.Rgcn

open Idealize.ShloMosaic Idealize.ShloMosaic.ValueIdx Cert.KernelIdeal

/-- The block product's entry at `j` is the whole product's entry where the output block places `j`. -/
theorem block_prod (X : S50000x384.Idx → EReal) (Wm : S384x384.Idx → EReal)
    (ex eo : S2000x384.Idx → S50000x384.Idx) (ew : S384x384.Idx → S384x384.Idx) (b : ℕ)
    (hex0 : ∀ y, ((ex y) 0).val = b * 2000 + (y 0).val) (hex1 : ∀ y, ((ex y) 1).val = (y 1).val)
    (heo0 : ∀ y, ((eo y) 0).val = b * 2000 + (y 0).val) (heo1 : ∀ y, ((eo y) 1).val = (y 1).val)
    (hew : ∀ z, ew z = z) (j : S2000x384.Idx) :
    (∑ k : Fin 384, X (ex (ix2 (j 0) k)) * Wm (ew (ix2 k (j 1)))) = prod X Wm (eo j) := by
  unfold prod rowCol
  refine Finset.sum_congr rfl fun k _ => ?_
  have e1 : ex (ix2 (j 0) k) = ix2 ((eo j) 0) k := by
    funext a; apply Fin.ext
    match a with
    | ⟨0, _⟩ => exact (hex0 (ix2 (j 0) k)).trans (heo0 j).symm
    | ⟨1, _⟩ => exact hex1 (ix2 (j 0) k)
  have e2 : ew (ix2 k (j 1)) = ix2 k ((eo j) 1) := by
    rw [hew]; funext a; apply Fin.ext
    match a with
    | ⟨0, _⟩ => rfl
    | ⟨1, _⟩ => exact (heo1 j).symm
  rw [e1, e2]
  rfl

/-- The same with the bias row added: the bias is one block, read at column `q` of its only row. -/
theorem block_prodBias (X : S50000x384.Idx → EReal) (Wm : S384x384.Idx → EReal) (B : S1x384.Idx → EReal)
    (ex eo : S2000x384.Idx → S50000x384.Idx) (ew : S384x384.Idx → S384x384.Idx) (eb : S1x384.Idx → S1x384.Idx) (b : ℕ)
    (hex0 : ∀ y, ((ex y) 0).val = b * 2000 + (y 0).val) (hex1 : ∀ y, ((ex y) 1).val = (y 1).val)
    (heo0 : ∀ y, ((eo y) 0).val = b * 2000 + (y 0).val) (heo1 : ∀ y, ((eo y) 1).val = (y 1).val)
    (hew : ∀ z, ew z = z) (heb : ∀ z, eb z = z) (j : S2000x384.Idx) :
    (∑ k : Fin 384, X (ex (ix2 (j 0) k)) * Wm (ew (ix2 k (j 1)))) + B (eb (ix2 (0 : Fin 1) (j 1)))
      = prodBias X Wm B (eo j) := by
  have h := block_prod X Wm ex eo ew b hex0 hex1 heo0 heo1 hew j
  unfold prodBias
  unfold prod at h
  rw [h, heb]
  have e3 : (ix2 (0 : Fin 1) (j 1) : S1x384.Idx) = ix2 (0 : Fin 1) ((eo j) 1) := by
    funext a; apply Fin.ext
    match a with
    | ⟨0, _⟩ => rfl
    | ⟨1, _⟩ => exact (heo1 j).symm
  rw [e3]
  rfl

end Cert.Rgcn

end
-- ==== Proof.Region0.lean ====
/-
  Launch 0 of the row-blocked products: what its three output arrays hold when it returns.

  The grid has 25 points; point `t` loads rows `2000 t … 2000 t + 1999` of the features, the three whole weight matrices
  and the bias row, and writes back the same rows of three outputs: the block times each relation weight, and the block
  times the root weight plus the bias. A change of float format is the identity on the extended reals and the
  accumulator starts at zero, so entry `(p, q)` of a written block is the sum over `k` of the block's `(p, k)` times the
  weight's `(k, q)`. The 25 blocks tile the 50000 rows (row `r` is in block `r / 2000`), so each output array ends as the
  whole product of the features and the weight as the launch finds them (`V`), whatever `V` is.
-/
import proofs.«109699_j90933047591155_1_alg».proof.Proof.Gen.KernelIdeal.Frame
import proofs.«109699_j90933047591155_1_alg».proof.Proof.BlockProd
import Idealize.ShloMosaic.Lib.Pipeline.Value
import Idealize.ShloMosaic.Lib.ValueLayout

set_option maxRecDepth 16384

noncomputable section

namespace Cert.Rgcn.Region0

open Cert.KernelIdeal Cert.KernelIdeal.Facts₀ Cert.KernelIdeal.Gen Cert.Rgcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's three stored values, entry by entry -/

theorem pay2_at (x0 : Vec Ideal S2000x384 .f32) (w : Vec Ideal S384x384 .bf16) (j : S2000x384.Idx) :
    k0_pay2 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k0_pay2 k0_pay1
  dsimp only
  simp only [shapeCast_self]
  exact PlainDot.matmul_zero_apply dot_S2000x384_S384x384_S2000x384_1_0_0_1_n_n rfl none _ _ p q

theorem pay3_at (x0 : Vec Ideal S2000x384 .f32) (w : Vec Ideal S384x384 .bf16) (j : S2000x384.Idx) :
    k0_pay3 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k0_pay3 k0_pay1
  dsimp only
  simp only [shapeCast_self]
  exact PlainDot.matmul_zero_apply dot_S2000x384_S384x384_S2000x384_1_0_0_1_n_n rfl none _ _ p q

theorem pay4_at (x0 : Vec Ideal S2000x384 .f32) (w : Vec Ideal S384x384 .bf16) (b : Vec Ideal S1x384 .f32) (j : S2000x384.Idx) :
    k0_pay4 (F := Ideal) x0 w b j = (∑ k : Fin 384, x0 (ix2 (j 0) k) * w (ix2 k (j 1))) + b (ix2 (0 : Fin 1) (j 1)) := by
  obtain ⟨p, q, rfl⟩ : ∃ (p : Fin 2000) (q : Fin 384), j = ix2 p q := ⟨j 0, j 1, eq_ix2 j⟩
  unfold k0_pay4 k0_pay1
  dsimp only
  simp only [shapeCast_self]
  refine (addf_apply _ _ _).trans ?_
  rw [broadcastTo_1b_ab_apply]
  exact congrArg (· + b (ix2 (0 : Fin 1) q)) (PlainDot.matmul_zero_apply dot_S2000x384_S384x384_S2000x384_1_0_0_1_n_n rfl none _ _ p q)

/-- Each window's block index at a point, decided over the 25 points: the features and the outputs move down the rows,
    the weights and the bias are one block. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

variable (V : (c : Dev nD) → (b : Ref sig .tc) → Buf (Elt Ideal) ((c : Thread nD τ).loc b))

/-! ## Output window 5 -/

theorem out5_at (x0 : Vec Ideal S2000x384 .f32) (x1 x2 x3 : Vec Ideal S384x384 .bf16) (x4 : Vec Ideal S1x384 .f32) (j : S2000x384.Idx) :
    out0_5 (F := Ideal) x0 x1 x2 x3 x4 j = ∑ k : Fin 384, x0 (ix2 (j 0) k) * x1 (ix2 k (j 1)) := by
  unfold out0_5
  rw [View.canon_unit_zero hz]
  simp only [View.ld_unit_zero (S := S2000x384) hz, View.ld_unit_zero (S := S384x384) hz]
  exact pay2_at x0 x1 j

/-- What point `t` writes back is block `t` of the whole product. -/
theorem flushed5 (c : Dev nD) (t : Fin cfg0.N) :
    (dat0 V c).flushed 5 t = ((cfg0.win 5).blk t).view.read (Elt Ideal) (prod (V c main_arg0) (V c main_v6)) := by
  show (cfg0.win 5).cut (grid0.coords t) ((dat0 V c).after 5 t) = _
  rw [after0_5]
  obtain ⟨h00, h01, h10, h11, h20, h21, h30, h31, h40, h41, h50, h51, h60, h61, h70, h71⟩ := idx_facts t
  funext j
  show out0_5 (iblk0 V c 0 t) (iblk0 V c 1 t) (iblk0 V c 2 t) (iblk0 V c 3 t) (iblk0 V c 4 t) j
    = (prod (V c main_arg0) (V c main_v6)) (((cfg0.win 5).blk t).view.emb j)
  refine (out5_at _ _ _ _ _ j).trans ?_
  exact block_prod (V c main_arg0) (V c main_v6)
    (fun y => ((cfg0.win 0).blk t).view.emb y) (fun y => ((cfg0.win 5).blk t).view.emb y)
    (fun z => ((cfg0.win 1).blk t).view.emb z) t.val
    (fun y => by show win0_0.index t (0 : Fin 2) * 2000 + 1 * (y 0).val = _; omega)
    (fun y => by show win0_0.index t (1 : Fin 2) * 384 + 1 * (y 1).val = _; omega)
    (fun y => by show win0_5.index t (0 : Fin 2) * 2000 + 1 * (y 0).val = _; omega)
    (fun y => by show win0_5.index t (1 : Fin 2) * 384 + 1 * (y 1).val = _; omega)
    (fun z => by
      funext a; apply Fin.ext
      match a with
      | ⟨0, _⟩ => show win0_1.index t (0 : Fin 2) * 384 + 1 * (z 0).val = (z 0).val; omega
      | ⟨1, _⟩ => show win0_1.index t (1 : Fin 2) * 384 + 1 * (z 1).val = (z 1).val; omega) j

/-- An index of the output array is in point `t`'s block iff each coordinate is in the block's range. -/
theorem mem_blk5 (t : Fin cfg0.N) (i : S50000x384.Idx) :
    i ∈ ((cfg0.win 5).blk t).view.set ↔ ∀ a : Fin 2, win0_5.index t a * S2000x384.size a ≤ (i a).val ∧ (i a).val < win0_5.index t a * S2000x384.size a + S2000x384.size a := by
  show i ∈ ((View.whole main_v12_0).slice (win0_5.rect t)).set ↔ _
  rw [View.set_slice_whole, Rect.mem_set_unit]
  exact Iff.rfl

/-- Every row is in some point's block: row `r` in block `r / 2000`. -/
theorem cover5 (i : S50000x384.Idx) : ∃ t : Fin cfg0.N, (cfg0.win 5).flush t = true ∧ i ∈ ((cfg0.win 5).blk t).view.set := by
  have hi0 : (i 0).val < 50000 := (i 0).isLt
  have hi1 : (i 1).val < 384 := (i 1).isLt
  have hN : grid0.N = 25 := N_0
  obtain ⟨t, ht⟩ : ∃ t : Fin cfg0.N, t.val = (i 0).val / 2000 := ⟨⟨(i 0).val / 2000, by show (i 0).val / 2000 < grid0.N; omega⟩, rfl⟩
  obtain ⟨h00, h01, h10, h11, h20, h21, h30, h31, h40, h41, h50, h51, h60, h61, h70, h71⟩ := idx_facts t
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 384 ≤ (i 1).val ∧ (i 1).val < win0_5.index t (1 : Fin 2) * 384 + 384; omega

/-- The output array after the launch. -/
theorem final5 (c : Dev nD) : (dat0 V c).arrAt 5 cfg0.N = prod (V c main_arg0) (V c main_v6) :=
  (dat0 V c).arrAt_eq_of_cover 5 (prod (V c main_arg0) (V c main_v6)) (fun t _ => flushed5 V c t) cover5

/-! ## Output window 6 -/

theorem out6_at (x0 : Vec Ideal S2000x384 .f32) (x1 x2 x3 : Vec Ideal S384x384 .bf16) (x4 : Vec Ideal S1x384 .f32) (j : S2000x384.Idx) :
    out0_6 (F := Ideal) x0 x1 x2 x3 x4 j = ∑ k : Fin 384, x0 (ix2 (j 0) k) * x2 (ix2 k (j 1)) := by
  unfold out0_6
  rw [View.canon_unit_zero hz]
  simp only [View.ld_unit_zero (S := S2000x384) hz, View.ld_unit_zero (S := S384x384) hz]
  exact pay3_at x0 x2 j

/-- What point `t` writes back is block `t` of the whole product. -/
theorem flushed6 (c : Dev nD) (t : Fin cfg0.N) :
    (dat0 V c).flushed 6 t = ((cfg0.win 6).blk t).view.read (Elt Ideal) (prod (V c main_arg0) (V c main_v9)) := by
  show (cfg0.win 6).cut (grid0.coords t) ((dat0 V c).after 6 t) = _
  rw [after0_6]
  obtain ⟨h00, h01, h10, h11, h20, h21, h30, h31, h40, h41, h50, h51, h60, h61, h70, h71⟩ := idx_facts t
  funext j
  show out0_6 (iblk0 V c 0 t) (iblk0 V c 1 t) (iblk0 V c 2 t) (iblk0 V c 3 t) (iblk0 V c 4 t) j
    = (prod (V c main_arg0) (V c main_v9)) (((cfg0.win 6).blk t).view.emb j)
  refine (out6_at _ _ _ _ _ j).trans ?_
  exact block_prod (V c main_arg0) (V c main_v9)
    (fun y => ((cfg0.win 0).blk t).view.emb y) (fun y => ((cfg0.win 6).blk t).view.emb y)
    (fun z => ((cfg0.win 2).blk t).view.emb z) t.val
    (fun y => by show win0_0.index t (0 : Fin 2) * 2000 + 1 * (y 0).val = _; omega)
    (fun y => by show win0_0.index t (1 : Fin 2) * 384 + 1 * (y 1).val = _; omega)
    (fun y => by show win0_6.index t (0 : Fin 2) * 2000 + 1 * (y 0).val = _; omega)
    (fun y => by show win0_6.index t (1 : Fin 2) * 384 + 1 * (y 1).val = _; omega)
    (fun z => by
      funext a; apply Fin.ext
      match a with
      | ⟨0, _⟩ => show win0_2.index t (0 : Fin 2) * 384 + 1 * (z 0).val = (z 0).val; omega
      | ⟨1, _⟩ => show win0_2.index t (1 : Fin 2) * 384 + 1 * (z 1).val = (z 1).val; omega) j

/-- An index of the output array is in point `t`'s block iff each coordinate is in the block's range. -/
theorem mem_blk6 (t : Fin cfg0.N) (i : S50000x384.Idx) :
    i ∈ ((cfg0.win 6).blk t).view.set ↔ ∀ a : Fin 2, win0_6.index t a * S2000x384.size a ≤ (i a).val ∧ (i a).val < win0_6.index t a * S2000x384.size a + S2000x384.size a := by
  show i ∈ ((View.whole main_v12_1).slice (win0_6.rect t)).set ↔ _
  rw [View.set_slice_whole, Rect.mem_set_unit]
  exact Iff.rfl

/-- Every row is in some point's block: row `r` in block `r / 2000`. -/
theorem cover6 (i : S50000x384.Idx) : ∃ t : Fin cfg0.N, (cfg0.win 6).flush t = true ∧ i ∈ ((cfg0.win 6).blk t).view.set := by
  have hi0 : (i 0).val < 50000 := (i 0).isLt
  have hi1 : (i 1).val < 384 := (i 1).isLt
  have hN : grid0.N = 25 := N_0
  obtain ⟨t, ht⟩ : ∃ t : Fin cfg0.N, t.val = (i 0).val / 2000 := ⟨⟨(i 0).val / 2000, by show (i 0).val / 2000 < grid0.N; omega⟩, rfl⟩
  obtain ⟨h00, h01, h10, h11, h20, h21, h30, h31, h40, h41, h50, h51, h60, h61, h70, h71⟩ := idx_facts t
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 384 ≤ (i 1).val ∧ (i 1).val < win0_6.index t (1 : Fin 2) * 384 + 384; omega

/-- The output array after the launch. -/
theorem final6 (c : Dev nD) : (dat0 V c).arrAt 6 cfg0.N = prod (V c main_arg0) (V c main_v9) :=
  (dat0 V c).arrAt_eq_of_cover 6 (prod (V c main_arg0) (V c main_v9)) (fun t _ => flushed6 V c t) cover6

/-! ## Output window 7 -/

theorem out7_at (x0 : Vec Ideal S2000x384 .f32) (x1 x2 x3 : Vec Ideal S384x384 .bf16) (x4 : Vec Ideal S1x384 .f32) (j : S2000x384.Idx) :
    out0_7 (F := Ideal) x0 x1 x2 x3 x4 j = (∑ k : Fin 384, x0 (ix2 (j 0) k) * x3 (ix2 k (j 1))) + x4 (ix2 (0 : Fin 1) (j 1)) := by
  unfold out0_7
  rw [View.canon_unit_zero hz]
  simp only [View.ld_unit_zero (S := S2000x384) hz, View.ld_unit_zero (S := S384x384) hz, View.ld_unit_zero (S := S1x384) hz]
  exact pay4_at x0 x3 x4 j

/-- What point `t` writes back is block `t` of the whole product. -/
theorem flushed7 (c : Dev nD) (t : Fin cfg0.N) :
    (dat0 V c).flushed 7 t = ((cfg0.win 7).blk t).view.read (Elt Ideal) (prodBias (V c main_arg0) (V c main_v10) (V c main_v11)) := by
  show (cfg0.win 7).cut (grid0.coords t) ((dat0 V c).after 7 t) = _
  rw [after0_7]
  obtain ⟨h00, h01, h10, h11, h20, h21, h30, h31, h40, h41, h50, h51, h60, h61, h70, h71⟩ := idx_facts t
  funext j
  show out0_7 (iblk0 V c 0 t) (iblk0 V c 1 t) (iblk0 V c 2 t) (iblk0 V c 3 t) (iblk0 V c 4 t) j
    = (prodBias (V c main_arg0) (V c main_v10) (V c main_v11)) (((cfg0.win 7).blk t).view.emb j)
  refine (out7_at _ _ _ _ _ j).trans ?_
  exact block_prodBias (V c main_arg0) (V c main_v10) (V c main_v11)
    (fun y => ((cfg0.win 0).blk t).view.emb y) (fun y => ((cfg0.win 7).blk t).view.emb y)
    (fun z => ((cfg0.win 3).blk t).view.emb z) (fun z => ((cfg0.win 4).blk t).view.emb z) t.val
    (fun y => by show win0_0.index t (0 : Fin 2) * 2000 + 1 * (y 0).val = _; omega)
    (fun y => by show win0_0.index t (1 : Fin 2) * 384 + 1 * (y 1).val = _; omega)
    (fun y => by show win0_7.index t (0 : Fin 2) * 2000 + 1 * (y 0).val = _; omega)
    (fun y => by show win0_7.index t (1 : Fin 2) * 384 + 1 * (y 1).val = _; omega)
    (fun z => by
      funext a; apply Fin.ext
      match a with
      | ⟨0, _⟩ => show win0_3.index t (0 : Fin 2) * 384 + 1 * (z 0).val = (z 0).val; omega
      | ⟨1, _⟩ => show win0_3.index t (1 : Fin 2) * 384 + 1 * (z 1).val = (z 1).val; omega)
    (fun z => by
      funext a; apply Fin.ext
      match a with
      | ⟨0, _⟩ => show win0_4.index t (0 : Fin 2) * 1 + 1 * (z 0).val = (z 0).val; omega
      | ⟨1, _⟩ => show win0_4.index t (1 : Fin 2) * 384 + 1 * (z 1).val = (z 1).val; omega) j

/-- An index of the output array is in point `t`'s block iff each coordinate is in the block's range. -/
theorem mem_blk7 (t : Fin cfg0.N) (i : S50000x384.Idx) :
    i ∈ ((cfg0.win 7).blk t).view.set ↔ ∀ a : Fin 2, win0_7.index t a * S2000x384.size a ≤ (i a).val ∧ (i a).val < win0_7.index t a * S2000x384.size a + S2000x384.size a := by
  show i ∈ ((View.whole main_v12_2).slice (win0_7.rect t)).set ↔ _
  rw [View.set_slice_whole, Rect.mem_set_unit]
  exact Iff.rfl

/-- Every row is in some point's block: row `r` in block `r / 2000`. -/
theorem cover7 (i : S50000x384.Idx) : ∃ t : Fin cfg0.N, (cfg0.win 7).flush t = true ∧ i ∈ ((cfg0.win 7).blk t).view.set := by
  have hi0 : (i 0).val < 50000 := (i 0).isLt
  have hi1 : (i 1).val < 384 := (i 1).isLt
  have hN : grid0.N = 25 := N_0
  obtain ⟨t, ht⟩ : ∃ t : Fin cfg0.N, t.val = (i 0).val / 2000 := ⟨⟨(i 0).val / 2000, by show (i 0).val / 2000 < grid0.N; omega⟩, rfl⟩
  obtain ⟨h00, h01, h10, h11, h20, h21, h30, h31, h40, h41, h50, h51, h60, h61, h70, h71⟩ := idx_facts t
  refine ⟨t, flush0_7 t, ?_⟩
  rw [mem_blk7]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 384 ≤ (i 1).val ∧ (i 1).val < win0_7.index t (1 : Fin 2) * 384 + 384; omega

/-- The output array after the launch. -/
theorem final7 (c : Dev nD) : (dat0 V c).arrAt 7 cfg0.N = prodBias (V c main_arg0) (V c main_v10) (V c main_v11) :=
  (dat0 V c).arrAt_eq_of_cover 7 (prodBias (V c main_arg0) (V c main_v10) (V c main_v11)) (fun t _ => flushed7 V c t) cover7

end Cert.Rgcn.Region0

end
-- ==== Proof.Region1.lean ====
/-
  Launch 1 of the row-blocked products: what its three output arrays hold when it returns.

  The grid has 25 points; point `t` loads rows `2000 t … 2000 t + 1999` of the features, the three whole weight matrices
  and the bias row, and writes back the same rows of three outputs: the block times each relation weight, and the block
  times the root weight plus the bias. A change of float format is the identity on the extended reals and the
  accumulator starts at zero, so entry `(p, q)` of a written block is the sum over `k` of the block's `(p, k)` times the
  weight's `(k, q)`. The 25 blocks tile the 50000 rows (row `r` is in block `r / 2000`), so each output array ends as the
  whole product of the features and the weight as the launch finds them (`V`), whatever `V` is.
-/
import proofs.«109699_j90933047591155_1_alg».proof.Proof.Gen.KernelIdeal.Frame
import proofs.«109699_j90933047591155_1_alg».proof.Proof.BlockProd
import Idealize.ShloMosaic.Lib.Pipeline.Value
import Idealize.ShloMosaic.Lib.ValueLayout

set_option maxRecDepth 16384

noncomputable section

namespace Cert.Rgcn.Region1

open Cert.KernelIdeal Cert.KernelIdeal.Facts₀ Cert.KernelIdeal.Gen Cert.Rgcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's three stored values, entry by entry -/

theorem pay2_at (x0 : Vec Ideal S2000x384 .f32) (w : Vec Ideal S384x384 .bf16) (j : S2000x384.Idx) :
    k1_pay2 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k1_pay2 k1_pay1
  dsimp only
  simp only [shapeCast_self]
  exact PlainDot.matmul_zero_apply dot_S2000x384_S384x384_S2000x384_1_0_0_1_n_n rfl none _ _ p q

theorem pay3_at (x0 : Vec Ideal S2000x384 .f32) (w : Vec Ideal S384x384 .bf16) (j : S2000x384.Idx) :
    k1_pay3 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k1_pay3 k1_pay1
  dsimp only
  simp only [shapeCast_self]
  exact PlainDot.matmul_zero_apply dot_S2000x384_S384x384_S2000x384_1_0_0_1_n_n rfl none _ _ p q

theorem pay4_at (x0 : Vec Ideal S2000x384 .f32) (w : Vec Ideal S384x384 .bf16) (b : Vec Ideal S1x384 .f32) (j : S2000x384.Idx) :
    k1_pay4 (F := Ideal) x0 w b j = (∑ k : Fin 384, x0 (ix2 (j 0) k) * w (ix2 k (j 1))) + b (ix2 (0 : Fin 1) (j 1)) := by
  obtain ⟨p, q, rfl⟩ : ∃ (p : Fin 2000) (q : Fin 384), j = ix2 p q := ⟨j 0, j 1, eq_ix2 j⟩
  unfold k1_pay4 k1_pay1
  dsimp only
  simp only [shapeCast_self]
  refine (addf_apply _ _ _).trans ?_
  rw [broadcastTo_1b_ab_apply]
  exact congrArg (· + b (ix2 (0 : Fin 1) q)) (PlainDot.matmul_zero_apply dot_S2000x384_S384x384_S2000x384_1_0_0_1_n_n rfl none _ _ p q)

/-- Each window's block index at a point, decided over the 25 points: the features and the outputs move down the rows,
    the weights and the bias are one block. -/
theorem idx_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

variable (V : (c : Dev nD) → (b : Ref sig .tc) → Buf (Elt Ideal) ((c : Thread nD τ).loc b))

/-! ## Output window 5 -/

theorem out5_at (x0 : Vec Ideal S2000x384 .f32) (x1 x2 x3 : Vec Ideal S384x384 .bf16) (x4 : Vec Ideal S1x384 .f32) (j : S2000x384.Idx) :
    out1_5 (F := Ideal) x0 x1 x2 x3 x4 j = ∑ k : Fin 384, x0 (ix2 (j 0) k) * x1 (ix2 k (j 1)) := by
  unfold out1_5
  rw [View.canon_unit_zero hz]
  simp only [View.ld_unit_zero (S := S2000x384) hz, View.ld_unit_zero (S := S384x384) hz]
  exact pay2_at x0 x1 j

/-- What point `t` writes back is block `t` of the whole product. -/
theorem flushed5 (c : Dev nD) (t : Fin cfg1.N) :
    (dat1 V c).flushed 5 t = ((cfg1.win 5).blk t).view.read (Elt Ideal) (prod (V c main_v63) (V c main_v66)) := by
  show (cfg1.win 5).cut (grid1.coords t) ((dat1 V c).after 5 t) = _
  rw [after1_5]
  obtain ⟨h00, h01, h10, h11, h20, h21, h30, h31, h40, h41, h50, h51, h60, h61, h70, h71⟩ := idx_facts t
  funext j
  show out1_5 (iblk1 V c 0 t) (iblk1 V c 1 t) (iblk1 V c 2 t) (iblk1 V c 3 t) (iblk1 V c 4 t) j
    = (prod (V c main_v63) (V c main_v66)) (((cfg1.win 5).blk t).view.emb j)
  refine (out5_at _ _ _ _ _ j).trans ?_
  exact block_prod (V c main_v63) (V c main_v66)
    (fun y => ((cfg1.win 0).blk t).view.emb y) (fun y => ((cfg1.win 5).blk t).view.emb y)
    (fun z => ((cfg1.win 1).blk t).view.emb z) t.val
    (fun y => by show win1_0.index t (0 : Fin 2) * 2000 + 1 * (y 0).val = _; omega)
    (fun y => by show win1_0.index t (1 : Fin 2) * 384 + 1 * (y 1).val = _; omega)
    (fun y => by show win1_5.index t (0 : Fin 2) * 2000 + 1 * (y 0).val = _; omega)
    (fun y => by show win1_5.index t (1 : Fin 2) * 384 + 1 * (y 1).val = _; omega)
    (fun z => by
      funext a; apply Fin.ext
      match a with
      | ⟨0, _⟩ => show win1_1.index t (0 : Fin 2) * 384 + 1 * (z 0).val = (z 0).val; omega
      | ⟨1, _⟩ => show win1_1.index t (1 : Fin 2) * 384 + 1 * (z 1).val = (z 1).val; omega) j

/-- An index of the output array is in point `t`'s block iff each coordinate is in the block's range. -/
theorem mem_blk5 (t : Fin cfg1.N) (i : S50000x384.Idx) :
    i ∈ ((cfg1.win 5).blk t).view.set ↔ ∀ a : Fin 2, win1_5.index t a * S2000x384.size a ≤ (i a).val ∧ (i a).val < win1_5.index t a * S2000x384.size a + S2000x384.size a := by
  show i ∈ ((View.whole main_v72_0).slice (win1_5.rect t)).set ↔ _
  rw [View.set_slice_whole, Rect.mem_set_unit]
  exact Iff.rfl

/-- Every row is in some point's block: row `r` in block `r / 2000`. -/
theorem cover5 (i : S50000x384.Idx) : ∃ t : Fin cfg1.N, (cfg1.win 5).flush t = true ∧ i ∈ ((cfg1.win 5).blk t).view.set := by
  have hi0 : (i 0).val < 50000 := (i 0).isLt
  have hi1 : (i 1).val < 384 := (i 1).isLt
  have hN : grid1.N = 25 := N_1
  obtain ⟨t, ht⟩ : ∃ t : Fin cfg1.N, t.val = (i 0).val / 2000 := ⟨⟨(i 0).val / 2000, by show (i 0).val / 2000 < grid1.N; omega⟩, rfl⟩
  obtain ⟨h00, h01, h10, h11, h20, h21, h30, h31, h40, h41, h50, h51, h60, h61, h70, h71⟩ := idx_facts t
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 384 ≤ (i 1).val ∧ (i 1).val < win1_5.index t (1 : Fin 2) * 384 + 384; omega

/-- The output array after the launch. -/
theorem final5 (c : Dev nD) : (dat1 V c).arrAt 5 cfg1.N = prod (V c main_v63) (V c main_v66) :=
  (dat1 V c).arrAt_eq_of_cover 5 (prod (V c main_v63) (V c main_v66)) (fun t _ => flushed5 V c t) cover5

/-! ## Output window 6 -/

theorem out6_at (x0 : Vec Ideal S2000x384 .f32) (x1 x2 x3 : Vec Ideal S384x384 .bf16) (x4 : Vec Ideal S1x384 .f32) (j : S2000x384.Idx) :
    out1_6 (F := Ideal) x0 x1 x2 x3 x4 j = ∑ k : Fin 384, x0 (ix2 (j 0) k) * x2 (ix2 k (j 1)) := by
  unfold out1_6
  rw [View.canon_unit_zero hz]
  simp only [View.ld_unit_zero (S := S2000x384) hz, View.ld_unit_zero (S := S384x384) hz]
  exact pay3_at x0 x2 j

/-- What point `t` writes back is block `t` of the whole product. -/
theorem flushed6 (c : Dev nD) (t : Fin cfg1.N) :
    (dat1 V c).flushed 6 t = ((cfg1.win 6).blk t).view.read (Elt Ideal) (prod (V c main_v63) (V c main_v69)) := by
  show (cfg1.win 6).cut (grid1.coords t) ((dat1 V c).after 6 t) = _
  rw [after1_6]
  obtain ⟨h00, h01, h10, h11, h20, h21, h30, h31, h40, h41, h50, h51, h60, h61, h70, h71⟩ := idx_facts t
  funext j
  show out1_6 (iblk1 V c 0 t) (iblk1 V c 1 t) (iblk1 V c 2 t) (iblk1 V c 3 t) (iblk1 V c 4 t) j
    = (prod (V c main_v63) (V c main_v69)) (((cfg1.win 6).blk t).view.emb j)
  refine (out6_at _ _ _ _ _ j).trans ?_
  exact block_prod (V c main_v63) (V c main_v69)
    (fun y => ((cfg1.win 0).blk t).view.emb y) (fun y => ((cfg1.win 6).blk t).view.emb y)
    (fun z => ((cfg1.win 2).blk t).view.emb z) t.val
    (fun y => by show win1_0.index t (0 : Fin 2) * 2000 + 1 * (y 0).val = _; omega)
    (fun y => by show win1_0.index t (1 : Fin 2) * 384 + 1 * (y 1).val = _; omega)
    (fun y => by show win1_6.index t (0 : Fin 2) * 2000 + 1 * (y 0).val = _; omega)
    (fun y => by show win1_6.index t (1 : Fin 2) * 384 + 1 * (y 1).val = _; omega)
    (fun z => by
      funext a; apply Fin.ext
      match a with
      | ⟨0, _⟩ => show win1_2.index t (0 : Fin 2) * 384 + 1 * (z 0).val = (z 0).val; omega
      | ⟨1, _⟩ => show win1_2.index t (1 : Fin 2) * 384 + 1 * (z 1).val = (z 1).val; omega) j

/-- An index of the output array is in point `t`'s block iff each coordinate is in the block's range. -/
theorem mem_blk6 (t : Fin cfg1.N) (i : S50000x384.Idx) :
    i ∈ ((cfg1.win 6).blk t).view.set ↔ ∀ a : Fin 2, win1_6.index t a * S2000x384.size a ≤ (i a).val ∧ (i a).val < win1_6.index t a * S2000x384.size a + S2000x384.size a := by
  show i ∈ ((View.whole main_v72_1).slice (win1_6.rect t)).set ↔ _
  rw [View.set_slice_whole, Rect.mem_set_unit]
  exact Iff.rfl

/-- Every row is in some point's block: row `r` in block `r / 2000`. -/
theorem cover6 (i : S50000x384.Idx) : ∃ t : Fin cfg1.N, (cfg1.win 6).flush t = true ∧ i ∈ ((cfg1.win 6).blk t).view.set := by
  have hi0 : (i 0).val < 50000 := (i 0).isLt
  have hi1 : (i 1).val < 384 := (i 1).isLt
  have hN : grid1.N = 25 := N_1
  obtain ⟨t, ht⟩ : ∃ t : Fin cfg1.N, t.val = (i 0).val / 2000 := ⟨⟨(i 0).val / 2000, by show (i 0).val / 2000 < grid1.N; omega⟩, rfl⟩
  obtain ⟨h00, h01, h10, h11, h20, h21, h30, h31, h40, h41, h50, h51, h60, h61, h70, h71⟩ := idx_facts t
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 384 ≤ (i 1).val ∧ (i 1).val < win1_6.index t (1 : Fin 2) * 384 + 384; omega

/-- The output array after the launch. -/
theorem final6 (c : Dev nD) : (dat1 V c).arrAt 6 cfg1.N = prod (V c main_v63) (V c main_v69) :=
  (dat1 V c).arrAt_eq_of_cover 6 (prod (V c main_v63) (V c main_v69)) (fun t _ => flushed6 V c t) cover6

/-! ## Output window 7 -/

theorem out7_at (x0 : Vec Ideal S2000x384 .f32) (x1 x2 x3 : Vec Ideal S384x384 .bf16) (x4 : Vec Ideal S1x384 .f32) (j : S2000x384.Idx) :
    out1_7 (F := Ideal) x0 x1 x2 x3 x4 j = (∑ k : Fin 384, x0 (ix2 (j 0) k) * x3 (ix2 k (j 1))) + x4 (ix2 (0 : Fin 1) (j 1)) := by
  unfold out1_7
  rw [View.canon_unit_zero hz]
  simp only [View.ld_unit_zero (S := S2000x384) hz, View.ld_unit_zero (S := S384x384) hz, View.ld_unit_zero (S := S1x384) hz]
  exact pay4_at x0 x3 x4 j

/-- What point `t` writes back is block `t` of the whole product. -/
theorem flushed7 (c : Dev nD) (t : Fin cfg1.N) :
    (dat1 V c).flushed 7 t = ((cfg1.win 7).blk t).view.read (Elt Ideal) (prodBias (V c main_v63) (V c main_v70) (V c main_v71)) := by
  show (cfg1.win 7).cut (grid1.coords t) ((dat1 V c).after 7 t) = _
  rw [after1_7]
  obtain ⟨h00, h01, h10, h11, h20, h21, h30, h31, h40, h41, h50, h51, h60, h61, h70, h71⟩ := idx_facts t
  funext j
  show out1_7 (iblk1 V c 0 t) (iblk1 V c 1 t) (iblk1 V c 2 t) (iblk1 V c 3 t) (iblk1 V c 4 t) j
    = (prodBias (V c main_v63) (V c main_v70) (V c main_v71)) (((cfg1.win 7).blk t).view.emb j)
  refine (out7_at _ _ _ _ _ j).trans ?_
  exact block_prodBias (V c main_v63) (V c main_v70) (V c main_v71)
    (fun y => ((cfg1.win 0).blk t).view.emb y) (fun y => ((cfg1.win 7).blk t).view.emb y)
    (fun z => ((cfg1.win 3).blk t).view.emb z) (fun z => ((cfg1.win 4).blk t).view.emb z) t.val
    (fun y => by show win1_0.index t (0 : Fin 2) * 2000 + 1 * (y 0).val = _; omega)
    (fun y => by show win1_0.index t (1 : Fin 2) * 384 + 1 * (y 1).val = _; omega)
    (fun y => by show win1_7.index t (0 : Fin 2) * 2000 + 1 * (y 0).val = _; omega)
    (fun y => by show win1_7.index t (1 : Fin 2) * 384 + 1 * (y 1).val = _; omega)
    (fun z => by
      funext a; apply Fin.ext
      match a with
      | ⟨0, _⟩ => show win1_3.index t (0 : Fin 2) * 384 + 1 * (z 0).val = (z 0).val; omega
      | ⟨1, _⟩ => show win1_3.index t (1 : Fin 2) * 384 + 1 * (z 1).val = (z 1).val; omega)
    (fun z => by
      funext a; apply Fin.ext
      match a with
      | ⟨0, _⟩ => show win1_4.index t (0 : Fin 2) * 1 + 1 * (z 0).val = (z 0).val; omega
      | ⟨1, _⟩ => show win1_4.index t (1 : Fin 2) * 384 + 1 * (z 1).val = (z 1).val; omega) j

/-- An index of the output array is in point `t`'s block iff each coordinate is in the block's range. -/
theorem mem_blk7 (t : Fin cfg1.N) (i : S50000x384.Idx) :
    i ∈ ((cfg1.win 7).blk t).view.set ↔ ∀ a : Fin 2, win1_7.index t a * S2000x384.size a ≤ (i a).val ∧ (i a).val < win1_7.index t a * S2000x384.size a + S2000x384.size a := by
  show i ∈ ((View.whole main_v72_2).slice (win1_7.rect t)).set ↔ _
  rw [View.set_slice_whole, Rect.mem_set_unit]
  exact Iff.rfl

/-- Every row is in some point's block: row `r` in block `r / 2000`. -/
theorem cover7 (i : S50000x384.Idx) : ∃ t : Fin cfg1.N, (cfg1.win 7).flush t = true ∧ i ∈ ((cfg1.win 7).blk t).view.set := by
  have hi0 : (i 0).val < 50000 := (i 0).isLt
  have hi1 : (i 1).val < 384 := (i 1).isLt
  have hN : grid1.N = 25 := N_1
  obtain ⟨t, ht⟩ : ∃ t : Fin cfg1.N, t.val = (i 0).val / 2000 := ⟨⟨(i 0).val / 2000, by show (i 0).val / 2000 < grid1.N; omega⟩, rfl⟩
  obtain ⟨h00, h01, h10, h11, h20, h21, h30, h31, h40, h41, h50, h51, h60, h61, h70, h71⟩ := idx_facts t
  refine ⟨t, flush1_7 t, ?_⟩
  rw [mem_blk7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 384 ≤ (i 1).val ∧ (i 1).val < win1_7.index t (1 : Fin 2) * 384 + 384; omega

/-- The output array after the launch. -/
theorem final7 (c : Dev nD) : (dat1 V c).arrAt 7 cfg1.N = prodBias (V c main_v63) (V c main_v70) (V c main_v71) :=
  (dat1 V c).arrAt_eq_of_cover 7 (prodBias (V c main_v63) (V c main_v70) (V c main_v71)) (fun t _ => flushed7 V c t) cover7

end Cert.Rgcn.Region1

end
-- ==== Proof.Region2.lean ====
/-
  Launch 2 of the row-blocked products: what its three output arrays hold when it returns.

  The grid has 25 points; point `t` loads rows `2000 t … 2000 t + 1999` of the features, the three whole weight matrices
  and the bias row, and writes back the same rows of three outputs: the block times each relation weight, and the block
  times the root weight plus the bias. A change of float format is the identity on the extended reals and the
  accumulator starts at zero, so entry `(p, q)` of a written block is the sum over `k` of the block's `(p, k)` times the
  weight's `(k, q)`. The 25 blocks tile the 50000 rows (row `r` is in block `r / 2000`), so each output array ends as the
  whole product of the features and the weight as the launch finds them (`V`), whatever `V` is.
-/
import proofs.«109699_j90933047591155_1_alg».proof.Proof.Gen.KernelIdeal.Frame
import proofs.«109699_j90933047591155_1_alg».proof.Proof.BlockProd
import Idealize.ShloMosaic.Lib.Pipeline.Value
import Idealize.ShloMosaic.Lib.ValueLayout

set_option maxRecDepth 16384

noncomputable section

namespace Cert.Rgcn.Region2

open Cert.KernelIdeal Cert.KernelIdeal.Facts₀ Cert.KernelIdeal.Gen Cert.Rgcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's three stored values, entry by entry -/

theorem pay2_at (x0 : Vec Ideal S2000x384 .f32) (w : Vec Ideal S384x384 .bf16) (j : S2000x384.Idx) :
    k2_pay2 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k2_pay2 k2_pay1
  dsimp only
  simp only [shapeCast_self]
  exact PlainDot.matmul_zero_apply dot_S2000x384_S384x384_S2000x384_1_0_0_1_n_n rfl none _ _ p q

theorem pay3_at (x0 : Vec Ideal S2000x384 .f32) (w : Vec Ideal S384x384 .bf16) (j : S2000x384.Idx) :
    k2_pay3 (F := Ideal) x0 w j = ∑ k : Fin 384, x0 (ix2 (j 0) k) * w (ix2 k (j 1)) := by
  obtain ⟨p, q, rfl⟩ : ∃ (p : Fin 2000) (q : Fin 384), j = ix2 p q := ⟨j 0, j 1, eq_ix2 j⟩
  unfold k2_pay3 k2_pay1
  dsimp only
  simp only [shapeCast_self]
  exact PlainDot.matmul_zero_apply dot_S2000x384_S384x384_S2000x384_1_0_0_1_n_n rfl none _ _ p q

theorem pay4_at (x0 : Vec Ideal S2000x384 .f32) (w : Vec Ideal S384x384 .bf16) (b : Vec Ideal S1x384 .f32) (j : S2000x384.Idx) :
    k2_pay4 (F := Ideal) x0 w b j = (∑ k : Fin 384, x0 (ix2 (j 0) k) * w (ix2 k (j 1))) + b (ix2 (0 : Fin 1) (j 1)) := by
  obtain ⟨p, q, rfl⟩ : ∃ (p : Fin 2000) (q : Fin 384), j = ix2 p q := ⟨j 0, j 1, eq_ix2 j⟩
  unfold k2_pay4 k2_pay1
  dsimp only
  simp only [shapeCast_self]
  refine (addf_apply _ _ _).trans ?_
  rw [broadcastTo_1b_ab_apply]
  exact congrArg (· + b (ix2 (0 : Fin 1) q)) (PlainDot.matmul_zero_apply dot_S2000x384_S384x384_S2000x384_1_0_0_1_n_n rfl none _ _ p q)

/-- Each window's block index at a point, decided over the 25 points: the features and the outputs move down the rows,
    the weights and the bias are one block. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = t.val
    ∧ win2_6.index t (1 : Fin 2) = 0
    ∧ win2_7.index t (0 : Fin 2) = t.val
    ∧ win2_7.index t (1 : Fin 2) = 0 :=
  (by decide +kernel : ∀ t : Fin grid2.N, _)

variable (V : (c : Dev nD) → (b : Ref sig .tc) → Buf (Elt Ideal) ((c : Thread nD τ).loc b))

/-! ## Output window 5 -/

theorem out5_at (x0 : Vec Ideal S2000x384 .f32) (x1 x2 x3 : Vec Ideal S384x384 .bf16) (x4 : Vec Ideal S1x384 .f32) (j : S2000x384.Idx) :
    out2_5 (F := Ideal) x0 x1 x2 x3 x4 j = ∑ k : Fin 384, x0 (ix2 (j 0) k) * x1 (ix2 k (j 1)) := by
  unfold out2_5
  rw [View.canon_unit_zero hz]
  simp only [View.ld_unit_zero (S := S2000x384) hz, View.ld_unit_zero (S := S384x384) hz]
  exact pay2_at x0 x1 j

/-- What point `t` writes back is block `t` of the whole product. -/
theorem flushed5 (c : Dev nD) (t : Fin cfg2.N) :
    (dat2 V c).flushed 5 t = ((cfg2.win 5).blk t).view.read (Elt Ideal) (prod (V c main_v123) (V c main_v126)) := by
  show (cfg2.win 5).cut (grid2.coords t) ((dat2 V c).after 5 t) = _
  rw [after2_5]
  obtain ⟨h00, h01, h10, h11, h20, h21, h30, h31, h40, h41, h50, h51, h60, h61, h70, h71⟩ := idx_facts t
  funext j
  show out2_5 (iblk2 V c 0 t) (iblk2 V c 1 t) (iblk2 V c 2 t) (iblk2 V c 3 t) (iblk2 V c 4 t) j
    = (prod (V c main_v123) (V c main_v126)) (((cfg2.win 5).blk t).view.emb j)
  refine (out5_at _ _ _ _ _ j).trans ?_
  exact block_prod (V c main_v123) (V c main_v126)
    (fun y => ((cfg2.win 0).blk t).view.emb y) (fun y => ((cfg2.win 5).blk t).view.emb y)
    (fun z => ((cfg2.win 1).blk t).view.emb z) t.val
    (fun y => by show win2_0.index t (0 : Fin 2) * 2000 + 1 * (y 0).val = _; omega)
    (fun y => by show win2_0.index t (1 : Fin 2) * 384 + 1 * (y 1).val = _; omega)
    (fun y => by show win2_5.index t (0 : Fin 2) * 2000 + 1 * (y 0).val = _; omega)
    (fun y => by show win2_5.index t (1 : Fin 2) * 384 + 1 * (y 1).val = _; omega)
    (fun z => by
      funext a; apply Fin.ext
      match a with
      | ⟨0, _⟩ => show win2_1.index t (0 : Fin 2) * 384 + 1 * (z 0).val = (z 0).val; omega
      | ⟨1, _⟩ => show win2_1.index t (1 : Fin 2) * 384 + 1 * (z 1).val = (z 1).val; omega) j

/-- An index of the output array is in point `t`'s block iff each coordinate is in the block's range. -/
theorem mem_blk5 (t : Fin cfg2.N) (i : S50000x384.Idx) :
    i ∈ ((cfg2.win 5).blk t).view.set ↔ ∀ a : Fin 2, win2_5.index t a * S2000x384.size a ≤ (i a).val ∧ (i a).val < win2_5.index t a * S2000x384.size a + S2000x384.size a := by
  show i ∈ ((View.whole main_v132_0).slice (win2_5.rect t)).set ↔ _
  rw [View.set_slice_whole, Rect.mem_set_unit]
  exact Iff.rfl

/-- Every row is in some point's block: row `r` in block `r / 2000`. -/
theorem cover5 (i : S50000x384.Idx) : ∃ t : Fin cfg2.N, (cfg2.win 5).flush t = true ∧ i ∈ ((cfg2.win 5).blk t).view.set := by
  have hi0 : (i 0).val < 50000 := (i 0).isLt
  have hi1 : (i 1).val < 384 := (i 1).isLt
  have hN : grid2.N = 25 := N_2
  obtain ⟨t, ht⟩ : ∃ t : Fin cfg2.N, t.val = (i 0).val / 2000 := ⟨⟨(i 0).val / 2000, by show (i 0).val / 2000 < grid2.N; omega⟩, rfl⟩
  obtain ⟨h00, h01, h10, h11, h20, h21, h30, h31, h40, h41, h50, h51, h60, h61, h70, h71⟩ := idx_facts t
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 384 ≤ (i 1).val ∧ (i 1).val < win2_5.index t (1 : Fin 2) * 384 + 384; omega

/-- The output array after the launch. -/
theorem final5 (c : Dev nD) : (dat2 V c).arrAt 5 cfg2.N = prod (V c main_v123) (V c main_v126) :=
  (dat2 V c).arrAt_eq_of_cover 5 (prod (V c main_v123) (V c main_v126)) (fun t _ => flushed5 V c t) cover5

/-! ## Output window 6 -/

theorem out6_at (x0 : Vec Ideal S2000x384 .f32) (x1 x2 x3 : Vec Ideal S384x384 .bf16) (x4 : Vec Ideal S1x384 .f32) (j : S2000x384.Idx) :
    out2_6 (F := Ideal) x0 x1 x2 x3 x4 j = ∑ k : Fin 384, x0 (ix2 (j 0) k) * x2 (ix2 k (j 1)) := by
  unfold out2_6
  rw [View.canon_unit_zero hz]
  simp only [View.ld_unit_zero (S := S2000x384) hz, View.ld_unit_zero (S := S384x384) hz]
  exact pay3_at x0 x2 j

/-- What point `t` writes back is block `t` of the whole product. -/
theorem flushed6 (c : Dev nD) (t : Fin cfg2.N) :
    (dat2 V c).flushed 6 t = ((cfg2.win 6).blk t).view.read (Elt Ideal) (prod (V c main_v123) (V c main_v129)) := by
  show (cfg2.win 6).cut (grid2.coords t) ((dat2 V c).after 6 t) = _
  rw [after2_6]
  obtain ⟨h00, h01, h10, h11, h20, h21, h30, h31, h40, h41, h50, h51, h60, h61, h70, h71⟩ := idx_facts t
  funext j
  show out2_6 (iblk2 V c 0 t) (iblk2 V c 1 t) (iblk2 V c 2 t) (iblk2 V c 3 t) (iblk2 V c 4 t) j
    = (prod (V c main_v123) (V c main_v129)) (((cfg2.win 6).blk t).view.emb j)
  refine (out6_at _ _ _ _ _ j).trans ?_
  exact block_prod (V c main_v123) (V c main_v129)
    (fun y => ((cfg2.win 0).blk t).view.emb y) (fun y => ((cfg2.win 6).blk t).view.emb y)
    (fun z => ((cfg2.win 2).blk t).view.emb z) t.val
    (fun y => by show win2_0.index t (0 : Fin 2) * 2000 + 1 * (y 0).val = _; omega)
    (fun y => by show win2_0.index t (1 : Fin 2) * 384 + 1 * (y 1).val = _; omega)
    (fun y => by show win2_6.index t (0 : Fin 2) * 2000 + 1 * (y 0).val = _; omega)
    (fun y => by show win2_6.index t (1 : Fin 2) * 384 + 1 * (y 1).val = _; omega)
    (fun z => by
      funext a; apply Fin.ext
      match a with
      | ⟨0, _⟩ => show win2_2.index t (0 : Fin 2) * 384 + 1 * (z 0).val = (z 0).val; omega
      | ⟨1, _⟩ => show win2_2.index t (1 : Fin 2) * 384 + 1 * (z 1).val = (z 1).val; omega) j

/-- An index of the output array is in point `t`'s block iff each coordinate is in the block's range. -/
theorem mem_blk6 (t : Fin cfg2.N) (i : S50000x384.Idx) :
    i ∈ ((cfg2.win 6).blk t).view.set ↔ ∀ a : Fin 2, win2_6.index t a * S2000x384.size a ≤ (i a).val ∧ (i a).val < win2_6.index t a * S2000x384.size a + S2000x384.size a := by
  show i ∈ ((View.whole main_v132_1).slice (win2_6.rect t)).set ↔ _
  rw [View.set_slice_whole, Rect.mem_set_unit]
  exact Iff.rfl

/-- Every row is in some point's block: row `r` in block `r / 2000`. -/
theorem cover6 (i : S50000x384.Idx) : ∃ t : Fin cfg2.N, (cfg2.win 6).flush t = true ∧ i ∈ ((cfg2.win 6).blk t).view.set := by
  have hi0 : (i 0).val < 50000 := (i 0).isLt
  have hi1 : (i 1).val < 384 := (i 1).isLt
  have hN : grid2.N = 25 := N_2
  obtain ⟨t, ht⟩ : ∃ t : Fin cfg2.N, t.val = (i 0).val / 2000 := ⟨⟨(i 0).val / 2000, by show (i 0).val / 2000 < grid2.N; omega⟩, rfl⟩
  obtain ⟨h00, h01, h10, h11, h20, h21, h30, h31, h40, h41, h50, h51, h60, h61, h70, h71⟩ := idx_facts t
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 384 ≤ (i 1).val ∧ (i 1).val < win2_6.index t (1 : Fin 2) * 384 + 384; omega

/-- The output array after the launch. -/
theorem final6 (c : Dev nD) : (dat2 V c).arrAt 6 cfg2.N = prod (V c main_v123) (V c main_v129) :=
  (dat2 V c).arrAt_eq_of_cover 6 (prod (V c main_v123) (V c main_v129)) (fun t _ => flushed6 V c t) cover6

/-! ## Output window 7 -/

theorem out7_at (x0 : Vec Ideal S2000x384 .f32) (x1 x2 x3 : Vec Ideal S384x384 .bf16) (x4 : Vec Ideal S1x384 .f32) (j : S2000x384.Idx) :
    out2_7 (F := Ideal) x0 x1 x2 x3 x4 j = (∑ k : Fin 384, x0 (ix2 (j 0) k) * x3 (ix2 k (j 1))) + x4 (ix2 (0 : Fin 1) (j 1)) := by
  unfold out2_7
  rw [View.canon_unit_zero hz]
  simp only [View.ld_unit_zero (S := S2000x384) hz, View.ld_unit_zero (S := S384x384) hz, View.ld_unit_zero (S := S1x384) hz]
  exact pay4_at x0 x3 x4 j

/-- What point `t` writes back is block `t` of the whole product. -/
theorem flushed7 (c : Dev nD) (t : Fin cfg2.N) :
    (dat2 V c).flushed 7 t = ((cfg2.win 7).blk t).view.read (Elt Ideal) (prodBias (V c main_v123) (V c main_v130) (V c main_v131)) := by
  show (cfg2.win 7).cut (grid2.coords t) ((dat2 V c).after 7 t) = _
  rw [after2_7]
  obtain ⟨h00, h01, h10, h11, h20, h21, h30, h31, h40, h41, h50, h51, h60, h61, h70, h71⟩ := idx_facts t
  funext j
  show out2_7 (iblk2 V c 0 t) (iblk2 V c 1 t) (iblk2 V c 2 t) (iblk2 V c 3 t) (iblk2 V c 4 t) j
    = (prodBias (V c main_v123) (V c main_v130) (V c main_v131)) (((cfg2.win 7).blk t).view.emb j)
  refine (out7_at _ _ _ _ _ j).trans ?_
  exact block_prodBias (V c main_v123) (V c main_v130) (V c main_v131)
    (fun y => ((cfg2.win 0).blk t).view.emb y) (fun y => ((cfg2.win 7).blk t).view.emb y)
    (fun z => ((cfg2.win 3).blk t).view.emb z) (fun z => ((cfg2.win 4).blk t).view.emb z) t.val
    (fun y => by show win2_0.index t (0 : Fin 2) * 2000 + 1 * (y 0).val = _; omega)
    (fun y => by show win2_0.index t (1 : Fin 2) * 384 + 1 * (y 1).val = _; omega)
    (fun y => by show win2_7.index t (0 : Fin 2) * 2000 + 1 * (y 0).val = _; omega)
    (fun y => by show win2_7.index t (1 : Fin 2) * 384 + 1 * (y 1).val = _; omega)
    (fun z => by
      funext a; apply Fin.ext
      match a with
      | ⟨0, _⟩ => show win2_3.index t (0 : Fin 2) * 384 + 1 * (z 0).val = (z 0).val; omega
      | ⟨1, _⟩ => show win2_3.index t (1 : Fin 2) * 384 + 1 * (z 1).val = (z 1).val; omega)
    (fun z => by
      funext a; apply Fin.ext
      match a with
      | ⟨0, _⟩ => show win2_4.index t (0 : Fin 2) * 1 + 1 * (z 0).val = (z 0).val; omega
      | ⟨1, _⟩ => show win2_4.index t (1 : Fin 2) * 384 + 1 * (z 1).val = (z 1).val; omega) j

/-- An index of the output array is in point `t`'s block iff each coordinate is in the block's range. -/
theorem mem_blk7 (t : Fin cfg2.N) (i : S50000x384.Idx) :
    i ∈ ((cfg2.win 7).blk t).view.set ↔ ∀ a : Fin 2, win2_7.index t a * S2000x384.size a ≤ (i a).val ∧ (i a).val < win2_7.index t a * S2000x384.size a + S2000x384.size a := by
  show i ∈ ((View.whole main_v132_2).slice (win2_7.rect t)).set ↔ _
  rw [View.set_slice_whole, Rect.mem_set_unit]
  exact Iff.rfl

/-- Every row is in some point's block: row `r` in block `r / 2000`. -/
theorem cover7 (i : S50000x384.Idx) : ∃ t : Fin cfg2.N, (cfg2.win 7).flush t = true ∧ i ∈ ((cfg2.win 7).blk t).view.set := by
  have hi0 : (i 0).val < 50000 := (i 0).isLt
  have hi1 : (i 1).val < 384 := (i 1).isLt
  have hN : grid2.N = 25 := N_2
  obtain ⟨t, ht⟩ : ∃ t : Fin cfg2.N, t.val = (i 0).val / 2000 := ⟨⟨(i 0).val / 2000, by show (i 0).val / 2000 < grid2.N; omega⟩, rfl⟩
  obtain ⟨h00, h01, h10, h11, h20, h21, h30, h31, h40, h41, h50, h51, h60, h61, h70, h71⟩ := idx_facts t
  refine ⟨t, flush2_7 t, ?_⟩
  rw [mem_blk7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 384 ≤ (i 1).val ∧ (i 1).val < win2_7.index t (1 : Fin 2) * 384 + 384; omega

/-- The output array after the launch. -/
theorem final7 (c : Dev nD) : (dat2 V c).arrAt 7 cfg2.N = prodBias (V c main_v123) (V c main_v130) (V c main_v131) :=
  (dat2 V c).arrAt_eq_of_cover 7 (prodBias (V c main_v123) (V c main_v130) (V c main_v131)) (fun t _ => flushed7 V c t) cover7

end Cert.Rgcn.Region2

end
-- ==== Proof.Stretch.lean ====
/-
  The host stretches between the launches, each as a function of the contents it starts from.

  Stretch 0 cuts the edge list into source and target rows, takes the two relation weights out of their stack and
  changes the weights' float format, and gives the bias a leading unit axis. Stretches 1 and 2 are one layer's
  aggregation of the three products just launched (`mix`), the rectifier, and the next layer's weights prepared as in
  stretch 0. Stretch 3 is the last layer's aggregation. Every other buffer a later stretch reads is left alone.
  All of it holds for any float values.
-/
import proofs.«109699_j90933047591155_1_alg».proof.Proof.Gen.KernelIdeal.Launch
import proofs.«109699_j90933047591155_1_alg».proof.Proof.Spec
import Idealize.ShloMosaic.Lib.StableHlo.Run

set_option maxRecDepth 16384

noncomputable section

namespace Cert.Rgcn.Stretch

open Cert.KernelIdeal Cert.KernelIdeal.Facts₀ Cert.KernelIdeal.Gen Cert.Rgcn
open Idealize.ShloMosaic Idealize.ShloMosaic.TcCoe Idealize.ShloMosaic.StableHlo

variable {F : FTy → Type} [FloatOps F] (U : Valuation τ sig (Elt F))

/-! ## Stretch 0 -/

theorem s0_v6 : StableHlo.after hostOps0 (U) (Proc.devRef .tc main_v6) = truncf .bf16 (relW0 (U (Proc.devRef .tc main_arg3))) Facts₀.bitsLt_bf16_f32 := by
  simp only [hostOps0]
  after_results_simp <;> rfl

theorem s0_v9 : StableHlo.after hostOps0 (U) (Proc.devRef .tc main_v9) = truncf .bf16 (relW1 (U (Proc.devRef .tc main_arg3))) Facts₀.bitsLt_bf16_f32 := by
  simp only [hostOps0]
  after_results_simp <;> rfl

theorem s0_v10 : StableHlo.after hostOps0 (U) (Proc.devRef .tc main_v10) = truncf .bf16 (U (Proc.devRef .tc main_arg4)) Facts₀.bitsLt_bf16_f32 := by
  simp only [hostOps0]
  after_results_simp <;> rfl

theorem s0_v11 : StableHlo.after hostOps0 (U) (Proc.devRef .tc main_v11) = shapeCast S1x384 (U (Proc.devRef .tc main_arg5)) Facts₀.shapeCasts_S384_S1x384 := by
  simp only [hostOps0]
  after_results_simp <;> rfl

theorem s0_v1 : StableHlo.after hostOps0 (U) (Proc.devRef .tc main_v1) = srcOf (U (Proc.devRef .tc main_arg1)) := by
  simp only [hostOps0]
  after_results_simp <;> rfl

theorem s0_v3 : StableHlo.after hostOps0 (U) (Proc.devRef .tc main_v3) = dstOf (U (Proc.devRef .tc main_arg1)) := by
  simp only [hostOps0]
  after_results_simp <;> rfl

theorem s0_keep_arg0 : StableHlo.after hostOps0 (U) (Proc.devRef .tc main_arg0) = U (Proc.devRef .tc main_arg0) := by
  simp only [hostOps0]
  after_results_simp

theorem s0_keep_arg2 : StableHlo.after hostOps0 (U) (Proc.devRef .tc main_arg2) = U (Proc.devRef .tc main_arg2) := by
  simp only [hostOps0]
  after_results_simp

theorem s0_keep_arg6 : StableHlo.after hostOps0 (U) (Proc.devRef .tc main_arg6) = U (Proc.devRef .tc main_arg6) := by
  simp only [hostOps0]
  after_results_simp

theorem s0_keep_arg7 : StableHlo.after hostOps0 (U) (Proc.devRef .tc main_arg7) = U (Proc.devRef .tc main_arg7) := by
  simp only [hostOps0]
  after_results_simp

theorem s0_keep_arg8 : StableHlo.after hostOps0 (U) (Proc.devRef .tc main_arg8) = U (Proc.devRef .tc main_arg8) := by
  simp only [hostOps0]
  after_results_simp

theorem s0_keep_arg9 : StableHlo.after hostOps0 (U) (Proc.devRef .tc main_arg9) = U (Proc.devRef .tc main_arg9) := by
  simp only [hostOps0]
  after_results_simp

theorem s0_keep_arg10 : StableHlo.after hostOps0 (U) (Proc.devRef .tc main_arg10) = U (Proc.devRef .tc main_arg10) := by
  simp only [hostOps0]
  after_results_simp

theorem s0_keep_arg11 : StableHlo.after hostOps0 (U) (Proc.devRef .tc main_arg11) = U (Proc.devRef .tc main_arg11) := by
  simp only [hostOps0]
  after_results_simp

/-! ## Stretch 1 -/

theorem s1_v63 : StableHlo.after hostOps1_2 (StableHlo.after hostOps1_1 (StableHlo.after hostOps1 (U))) (Proc.devRef .tc main_v63) = rect (mix (U (Proc.devRef .tc main_v12_0)) (U (Proc.devRef .tc main_v12_1)) (U (Proc.devRef .tc main_v12_2)) (U (Proc.devRef .tc main_v1)) (U (Proc.devRef .tc main_v3)) (U (Proc.devRef .tc main_arg2))) := by
  simp only [hostOps1, hostOps1_1, hostOps1_2]
  after_results_simp <;> rfl

theorem s1_v66 : StableHlo.after hostOps1_2 (StableHlo.after hostOps1_1 (StableHlo.after hostOps1 (U))) (Proc.devRef .tc main_v66) = truncf .bf16 (relW0 (U (Proc.devRef .tc main_arg6))) Facts₀.bitsLt_bf16_f32 := by
  simp only [hostOps1, hostOps1_1, hostOps1_2]
  after_results_simp <;> rfl

theorem s1_v69 : StableHlo.after hostOps1_2 (StableHlo.after hostOps1_1 (StableHlo.after hostOps1 (U))) (Proc.devRef .tc main_v69) = truncf .bf16 (relW1 (U (Proc.devRef .tc main_arg6))) Facts₀.bitsLt_bf16_f32 := by
  simp only [hostOps1, hostOps1_1, hostOps1_2]
  after_results_simp <;> rfl

theorem s1_v70 : StableHlo.after hostOps1_2 (StableHlo.after hostOps1_1 (StableHlo.after hostOps1 (U))) (Proc.devRef .tc main_v70) = truncf .bf16 (U (Proc.devRef .tc main_arg7)) Facts₀.bitsLt_bf16_f32 := by
  simp only [hostOps1, hostOps1_1, hostOps1_2]
  after_results_simp <;> rfl

theorem s1_v71 : StableHlo.after hostOps1_2 (StableHlo.after hostOps1_1 (StableHlo.after hostOps1 (U))) (Proc.devRef .tc main_v71) = shapeCast S1x384 (U (Proc.devRef .tc main_arg8)) Facts₀.shapeCasts_S384_S1x384 := by
  simp only [hostOps1, hostOps1_1, hostOps1_2]
  after_results_simp <;> rfl

theorem s1_keep_v1 : StableHlo.after hostOps1_2 (StableHlo.after hostOps1_1 (StableHlo.after hostOps1 (U))) (Proc.devRef .tc main_v1) = U (Proc.devRef .tc main_v1) := by
  simp only [hostOps1, hostOps1_1, hostOps1_2]
  after_results_simp

theorem s1_keep_v3 : StableHlo.after hostOps1_2 (StableHlo.after hostOps1_1 (StableHlo.after hostOps1 (U))) (Proc.devRef .tc main_v3) = U (Proc.devRef .tc main_v3) := by
  simp only [hostOps1, hostOps1_1, hostOps1_2]
  after_results_simp

theorem s1_keep_arg2 : StableHlo.after hostOps1_2 (StableHlo.after hostOps1_1 (StableHlo.after hostOps1 (U))) (Proc.devRef .tc main_arg2) = U (Proc.devRef .tc main_arg2) := by
  simp only [hostOps1, hostOps1_1, hostOps1_2]
  after_results_simp

theorem s1_keep_arg9 : StableHlo.after hostOps1_2 (StableHlo.after hostOps1_1 (StableHlo.after hostOps1 (U))) (Proc.devRef .tc main_arg9) = U (Proc.devRef .tc main_arg9) := by
  simp only [hostOps1, hostOps1_1, hostOps1_2]
  after_results_simp

theorem s1_keep_arg10 : StableHlo.after hostOps1_2 (StableHlo.after hostOps1_1 (StableHlo.after hostOps1 (U))) (Proc.devRef .tc main_arg10) = U (Proc.devRef .tc main_arg10) := by
  simp only [hostOps1, hostOps1_1, hostOps1_2]
  after_results_simp

theorem s1_keep_arg11 : StableHlo.after hostOps1_2 (StableHlo.after hostOps1_1 (StableHlo.after hostOps1 (U))) (Proc.devRef .tc main_arg11) = U (Proc.devRef .tc main_arg11) := by
  simp only [hostOps1, hostOps1_1, hostOps1_2]
  after_results_simp

/-! ## Stretch 2 -/

theorem s2_v123 : StableHlo.after hostOps2_2 (StableHlo.after hostOps2_1 (StableHlo.after hostOps2 (U))) (Proc.devRef .tc main_v123) = rect (mix (U (Proc.devRef .tc main_v72_0)) (U (Proc.devRef .tc main_v72_1)) (U (Proc.devRef .tc main_v72_2)) (U (Proc.devRef .tc main_v1)) (U (Proc.devRef .tc main_v3)) (U (Proc.devRef .tc main_arg2))) := by
  simp only [hostOps2, hostOps2_1, hostOps2_2]
  after_results_simp <;> rfl

theorem s2_v126 : StableHlo.after hostOps2_2 (StableHlo.after hostOps2_1 (StableHlo.after hostOps2 (U))) (Proc.devRef .tc main_v126) = truncf .bf16 (relW0 (U (Proc.devRef .tc main_arg9))) Facts₀.bitsLt_bf16_f32 := by
  simp only [hostOps2, hostOps2_1, hostOps2_2]
  after_results_simp <;> rfl

theorem s2_v129 : StableHlo.after hostOps2_2 (StableHlo.after hostOps2_1 (StableHlo.after hostOps2 (U))) (Proc.devRef .tc main_v129) = truncf .bf16 (relW1 (U (Proc.devRef .tc main_arg9))) Facts₀.bitsLt_bf16_f32 := by
  simp only [hostOps2, hostOps2_1, hostOps2_2]
  after_results_simp <;> rfl

theorem s2_v130 : StableHlo.after hostOps2_2 (StableHlo.after hostOps2_1 (StableHlo.after hostOps2 (U))) (Proc.devRef .tc main_v130) = truncf .bf16 (U (Proc.devRef .tc main_arg10)) Facts₀.bitsLt_bf16_f32 := by
  simp only [hostOps2, hostOps2_1, hostOps2_2]
  after_results_simp <;> rfl

theorem s2_v131 : StableHlo.after hostOps2_2 (StableHlo.after hostOps2_1 (StableHlo.after hostOps2 (U))) (Proc.devRef .tc main_v131) = shapeCast S1x384 (U (Proc.devRef .tc main_arg11)) Facts₀.shapeCasts_S384_S1x384 := by
  simp only [hostOps2, hostOps2_1, hostOps2_2]
  after_results_simp <;> rfl

theorem s2_keep_v1 : StableHlo.after hostOps2_2 (StableHlo.after hostOps2_1 (StableHlo.after hostOps2 (U))) (Proc.devRef .tc main_v1) = U (Proc.devRef .tc main_v1) := by
  simp only [hostOps2, hostOps2_1, hostOps2_2]
  after_results_simp

theorem s2_keep_v3 : StableHlo.after hostOps2_2 (StableHlo.after hostOps2_1 (StableHlo.after hostOps2 (U))) (Proc.devRef .tc main_v3) = U (Proc.devRef .tc main_v3) := by
  simp only [hostOps2, hostOps2_1, hostOps2_2]
  after_results_simp

theorem s2_keep_arg2 : StableHlo.after hostOps2_2 (StableHlo.after hostOps2_1 (StableHlo.after hostOps2 (U))) (Proc.devRef .tc main_arg2) = U (Proc.devRef .tc main_arg2) := by
  simp only [hostOps2, hostOps2_1, hostOps2_2]
  after_results_simp

/-! ## Stretch 3 -/

theorem s3_v182 : StableHlo.after hostOps3 (U) (Proc.devRef .tc main_v182) = mix (U (Proc.devRef .tc main_v132_0)) (U (Proc.devRef .tc main_v132_1)) (U (Proc.devRef .tc main_v132_2)) (U (Proc.devRef .tc main_v1)) (U (Proc.devRef .tc main_v3)) (U (Proc.devRef .tc main_arg2)) := by
  simp only [hostOps3]
  after_results_simp <;> rfl

end Cert.Rgcn.Stretch

end
-- ==== Proof.KernelValue.lean ====
/-
  The kernel's result, read back through the segments to the launch arguments.

  Going forward through the fold of boundary contents: after stretch 0 the first launch finds the features, the two
  relation weights, the root weight and the bias row; it leaves the three products of layer 1; stretch 1 mixes them with
  the edge list into layer 1's output, rectifies it and prepares layer 2's weights; and so on. At each boundary the few
  buffers later segments read are stated in closed form of the arguments (`X1`, `X2` are the rectified outputs of
  layers 1 and 2); a launch changes only its own output arrays, a host stretch only the buffers its operations write.
  The last boundary's result buffer is the three-layer network `net` of the arguments.
-/
import proofs.«109699_j90933047591155_1_alg».proof.Proof.Region0
import proofs.«109699_j90933047591155_1_alg».proof.Proof.Region1
import proofs.«109699_j90933047591155_1_alg».proof.Proof.Region2
import proofs.«109699_j90933047591155_1_alg».proof.Proof.Stretch

set_option maxRecDepth 16384

noncomputable section

namespace Cert.Rgcn.KernelValue

open Cert.KernelIdeal Cert.KernelIdeal.Facts₀ Cert.KernelIdeal.Gen Cert.Rgcn
open Idealize.ShloMosaic Idealize.ShloMosaic.TcCoe Idealize.SL.Sem

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-- Layer 1's rectified output, and layer 2's. -/
def X1 : S50000x384.Idx → EReal :=
  rect (F := Ideal) (layer (A m c main_arg0) (A m c main_arg3) (A m c main_arg4) (A m c main_arg5) (A m c main_arg1) (A m c main_arg2))
def X2 : S50000x384.Idx → EReal :=
  rect (F := Ideal) (layer (X1 m c) (A m c main_arg6) (A m c main_arg7) (A m c main_arg8) (A m c main_arg1) (A m c main_arg2))

/-! ## Boundary 1: after stretch 0, from the launch memory -/

theorem b1_v6 : W1 m ρ c (Proc.devRef .tc main_v6) = truncf (F := Ideal) .bf16 (relW0 (F := Ideal) (A m c main_arg3)) Facts₀.bitsLt_bf16_f32 :=
  Stretch.s0_v6 (W0 m ρ c)
theorem b1_v9 : W1 m ρ c (Proc.devRef .tc main_v9) = truncf (F := Ideal) .bf16 (relW1 (F := Ideal) (A m c main_arg3)) Facts₀.bitsLt_bf16_f32 :=
  Stretch.s0_v9 (W0 m ρ c)
theorem b1_v10 : W1 m ρ c (Proc.devRef .tc main_v10) = truncf (F := Ideal) .bf16 (A m c main_arg4) Facts₀.bitsLt_bf16_f32 :=
  Stretch.s0_v10 (W0 m ρ c)
theorem b1_v11 : W1 m ρ c (Proc.devRef .tc main_v11) = shapeCast S1x384 (A m c main_arg5) Facts₀.shapeCasts_S384_S1x384 :=
  Stretch.s0_v11 (W0 m ρ c)
theorem b1_v1 : W1 m ρ c (Proc.devRef .tc main_v1) = srcOf (F := Ideal) (A m c main_arg1) :=
  Stretch.s0_v1 (W0 m ρ c)
theorem b1_v3 : W1 m ρ c (Proc.devRef .tc main_v3) = dstOf (F := Ideal) (A m c main_arg1) :=
  Stretch.s0_v3 (W0 m ρ c)

theorem b1_arg0 : W1 m ρ c (Proc.devRef .tc main_arg0) = A m c main_arg0 :=
  Stretch.s0_keep_arg0 (W0 m ρ c)
theorem b1_arg2 : W1 m ρ c (Proc.devRef .tc main_arg2) = A m c main_arg2 :=
  Stretch.s0_keep_arg2 (W0 m ρ c)
theorem b1_arg6 : W1 m ρ c (Proc.devRef .tc main_arg6) = A m c main_arg6 :=
  Stretch.s0_keep_arg6 (W0 m ρ c)
theorem b1_arg7 : W1 m ρ c (Proc.devRef .tc main_arg7) = A m c main_arg7 :=
  Stretch.s0_keep_arg7 (W0 m ρ c)
theorem b1_arg8 : W1 m ρ c (Proc.devRef .tc main_arg8) = A m c main_arg8 :=
  Stretch.s0_keep_arg8 (W0 m ρ c)
theorem b1_arg9 : W1 m ρ c (Proc.devRef .tc main_arg9) = A m c main_arg9 :=
  Stretch.s0_keep_arg9 (W0 m ρ c)
theorem b1_arg10 : W1 m ρ c (Proc.devRef .tc main_arg10) = A m c main_arg10 :=
  Stretch.s0_keep_arg10 (W0 m ρ c)
theorem b1_arg11 : W1 m ρ c (Proc.devRef .tc main_arg11) = A m c main_arg11 :=
  Stretch.s0_keep_arg11 (W0 m ρ c)

/-! ## Boundary 2: after launch 0 -/

theorem b2_o0 : W2 m ρ c (Proc.devRef .tc main_v12_0) = prod (A m c main_arg0) (relW0 (F := Ideal) (A m c main_arg3)) :=
  (W2_arr m ρ c 5).trans ((Region0.final5 (V1 m ρ) c).trans (congrArg₂ prod (b1_arg0 m ρ c) (b1_v6 m ρ c)))
theorem b2_o1 : W2 m ρ c (Proc.devRef .tc main_v12_1) = prod (A m c main_arg0) (relW1 (F := Ideal) (A m c main_arg3)) :=
  (W2_arr m ρ c 6).trans ((Region0.final6 (V1 m ρ) c).trans (congrArg₂ prod (b1_arg0 m ρ c) (b1_v9 m ρ c)))
theorem b2_o2 : W2 m ρ c (Proc.devRef .tc main_v12_2) = prodBias (A m c main_arg0) (A m c main_arg4) (shapeCast S1x384 (A m c main_arg5) Facts₀.shapeCasts_S384_S1x384) :=
  (W2_arr m ρ c 7).trans ((Region0.final7 (V1 m ρ) c).trans
    (by rw [show V1 m ρ c main_arg0 = A m c main_arg0 from b1_arg0 m ρ c, show V1 m ρ c main_v10 = _ from b1_v10 m ρ c,
          show V1 m ρ c main_v11 = _ from b1_v11 m ρ c]; rfl))

theorem b2_v1 : W2 m ρ c (Proc.devRef .tc main_v1) = W1 m ρ c (Proc.devRef .tc main_v1) := W2_of_ne m ρ c main_v1 (by decide)
theorem b2_v3 : W2 m ρ c (Proc.devRef .tc main_v3) = W1 m ρ c (Proc.devRef .tc main_v3) := W2_of_ne m ρ c main_v3 (by decide)
theorem b2_arg2 : W2 m ρ c (Proc.devRef .tc main_arg2) = W1 m ρ c (Proc.devRef .tc main_arg2) := W2_of_ne m ρ c main_arg2 (by decide)
theorem b2_arg6 : W2 m ρ c (Proc.devRef .tc main_arg6) = W1 m ρ c (Proc.devRef .tc main_arg6) := W2_of_ne m ρ c main_arg6 (by decide)
theorem b2_arg7 : W2 m ρ c (Proc.devRef .tc main_arg7) = W1 m ρ c (Proc.devRef .tc main_arg7) := W2_of_ne m ρ c main_arg7 (by decide)
theorem b2_arg8 : W2 m ρ c (Proc.devRef .tc main_arg8) = W1 m ρ c (Proc.devRef .tc main_arg8) := W2_of_ne m ρ c main_arg8 (by decide)
theorem b2_arg9 : W2 m ρ c (Proc.devRef .tc main_arg9) = W1 m ρ c (Proc.devRef .tc main_arg9) := W2_of_ne m ρ c main_arg9 (by decide)
theorem b2_arg10 : W2 m ρ c (Proc.devRef .tc main_arg10) = W1 m ρ c (Proc.devRef .tc main_arg10) := W2_of_ne m ρ c main_arg10 (by decide)
theorem b2_arg11 : W2 m ρ c (Proc.devRef .tc main_arg11) = W1 m ρ c (Proc.devRef .tc main_arg11) := W2_of_ne m ρ c main_arg11 (by decide)

/-! ## Boundary 5: after stretch 1 -/

theorem b5_x : W5 m ρ c (Proc.devRef .tc main_v63) = X1 m c :=
  (Stretch.s1_v63 (W2 m ρ c)).trans (by
    rw [b2_o0, b2_o1, b2_o2, b2_v1, b2_v3, b2_arg2, b1_v1, b1_v3, b1_arg2]; rfl)

theorem b5_v66 : W5 m ρ c (Proc.devRef .tc main_v66) = truncf (F := Ideal) .bf16 (relW0 (F := Ideal) (A m c main_arg6)) Facts₀.bitsLt_bf16_f32 :=
  (Stretch.s1_v66 (W2 m ρ c)).trans (by rw [b2_arg6, b1_arg6])
theorem b5_v69 : W5 m ρ c (Proc.devRef .tc main_v69) = truncf (F := Ideal) .bf16 (relW1 (F := Ideal) (A m c main_arg6)) Facts₀.bitsLt_bf16_f32 :=
  (Stretch.s1_v69 (W2 m ρ c)).trans (by rw [b2_arg6, b1_arg6])
theorem b5_v70 : W5 m ρ c (Proc.devRef .tc main_v70) = truncf (F := Ideal) .bf16 (A m c main_arg7) Facts₀.bitsLt_bf16_f32 :=
  (Stretch.s1_v70 (W2 m ρ c)).trans (by rw [b2_arg7, b1_arg7])
theorem b5_v71 : W5 m ρ c (Proc.devRef .tc main_v71) = shapeCast S1x384 (A m c main_arg8) Facts₀.shapeCasts_S384_S1x384 :=
  (Stretch.s1_v71 (W2 m ρ c)).trans (by rw [b2_arg8, b1_arg8])

theorem b5_v1 : W5 m ρ c (Proc.devRef .tc main_v1) = srcOf (F := Ideal) (A m c main_arg1) :=
  (Stretch.s1_keep_v1 (W2 m ρ c)).trans ((b2_v1 m ρ c).trans (b1_v1 m ρ c))
theorem b5_v3 : W5 m ρ c (Proc.devRef .tc main_v3) = dstOf (F := Ideal) (A m c main_arg1) :=
  (Stretch.s1_keep_v3 (W2 m ρ c)).trans ((b2_v3 m ρ c).trans (b1_v3 m ρ c))
theorem b5_arg2 : W5 m ρ c (Proc.devRef .tc main_arg2) = (A m c main_arg2) :=
  (Stretch.s1_keep_arg2 (W2 m ρ c)).trans ((b2_arg2 m ρ c).trans (b1_arg2 m ρ c))
theorem b5_arg9 : W5 m ρ c (Proc.devRef .tc main_arg9) = (A m c main_arg9) :=
  (Stretch.s1_keep_arg9 (W2 m ρ c)).trans ((b2_arg9 m ρ c).trans (b1_arg9 m ρ c))
theorem b5_arg10 : W5 m ρ c (Proc.devRef .tc main_arg10) = (A m c main_arg10) :=
  (Stretch.s1_keep_arg10 (W2 m ρ c)).trans ((b2_arg10 m ρ c).trans (b1_arg10 m ρ c))
theorem b5_arg11 : W5 m ρ c (Proc.devRef .tc main_arg11) = (A m c main_arg11) :=
  (Stretch.s1_keep_arg11 (W2 m ρ c)).trans ((b2_arg11 m ρ c).trans (b1_arg11 m ρ c))

/-! ## Boundary 6: after launch 1 -/

theorem b6_o0 : W6 m ρ c (Proc.devRef .tc main_v72_0) = prod (X1 m c) (relW0 (F := Ideal) (A m c main_arg6)) :=
  (W6_arr m ρ c 5).trans ((Region1.final5 (V5 m ρ) c).trans (congrArg₂ prod (b5_x m ρ c) (b5_v66 m ρ c)))
theorem b6_o1 : W6 m ρ c (Proc.devRef .tc main_v72_1) = prod (X1 m c) (relW1 (F := Ideal) (A m c main_arg6)) :=
  (W6_arr m ρ c 6).trans ((Region1.final6 (V5 m ρ) c).trans (congrArg₂ prod (b5_x m ρ c) (b5_v69 m ρ c)))
theorem b6_o2 : W6 m ρ c (Proc.devRef .tc main_v72_2) = prodBias (X1 m c) (A m c main_arg7) (shapeCast S1x384 (A m c main_arg8) Facts₀.shapeCasts_S384_S1x384) :=
  (W6_arr m ρ c 7).trans ((Region1.final7 (V5 m ρ) c).trans
    (by rw [show V5 m ρ c main_v63 = X1 m c from b5_x m ρ c, show V5 m ρ c main_v70 = _ from b5_v70 m ρ c,
          show V5 m ρ c main_v71 = _ from b5_v71 m ρ c]; rfl))

theorem b6_v1 : W6 m ρ c (Proc.devRef .tc main_v1) = W5 m ρ c (Proc.devRef .tc main_v1) := W6_of_ne m ρ c main_v1 (by decide)
theorem b6_v3 : W6 m ρ c (Proc.devRef .tc main_v3) = W5 m ρ c (Proc.devRef .tc main_v3) := W6_of_ne m ρ c main_v3 (by decide)
theorem b6_arg2 : W6 m ρ c (Proc.devRef .tc main_arg2) = W5 m ρ c (Proc.devRef .tc main_arg2) := W6_of_ne m ρ c main_arg2 (by decide)
theorem b6_arg9 : W6 m ρ c (Proc.devRef .tc main_arg9) = W5 m ρ c (Proc.devRef .tc main_arg9) := W6_of_ne m ρ c main_arg9 (by decide)
theorem b6_arg10 : W6 m ρ c (Proc.devRef .tc main_arg10) = W5 m ρ c (Proc.devRef .tc main_arg10) := W6_of_ne m ρ c main_arg10 (by decide)
theorem b6_arg11 : W6 m ρ c (Proc.devRef .tc main_arg11) = W5 m ρ c (Proc.devRef .tc main_arg11) := W6_of_ne m ρ c main_arg11 (by decide)

/-! ## Boundary 9: after stretch 2 -/

theorem b9_x : W9 m ρ c (Proc.devRef .tc main_v123) = X2 m c :=
  (Stretch.s2_v123 (W6 m ρ c)).trans (by
    rw [b6_o0, b6_o1, b6_o2, b6_v1, b6_v3, b6_arg2, b5_v1, b5_v3, b5_arg2]; rfl)

theorem b9_v126 : W9 m ρ c (Proc.devRef .tc main_v126) = truncf (F := Ideal) .bf16 (relW0 (F := Ideal) (A m c main_arg9)) Facts₀.bitsLt_bf16_f32 :=
  (Stretch.s2_v126 (W6 m ρ c)).trans (by rw [b6_arg9, b5_arg9])
theorem b9_v129 : W9 m ρ c (Proc.devRef .tc main_v129) = truncf (F := Ideal) .bf16 (relW1 (F := Ideal) (A m c main_arg9)) Facts₀.bitsLt_bf16_f32 :=
  (Stretch.s2_v129 (W6 m ρ c)).trans (by rw [b6_arg9, b5_arg9])
theorem b9_v130 : W9 m ρ c (Proc.devRef .tc main_v130) = truncf (F := Ideal) .bf16 (A m c main_arg10) Facts₀.bitsLt_bf16_f32 :=
  (Stretch.s2_v130 (W6 m ρ c)).trans (by rw [b6_arg10, b5_arg10])
theorem b9_v131 : W9 m ρ c (Proc.devRef .tc main_v131) = shapeCast S1x384 (A m c main_arg11) Facts₀.shapeCasts_S384_S1x384 :=
  (Stretch.s2_v131 (W6 m ρ c)).trans (by rw [b6_arg11, b5_arg11])

theorem b9_v1 : W9 m ρ c (Proc.devRef .tc main_v1) = srcOf (F := Ideal) (A m c main_arg1) :=
  (Stretch.s2_keep_v1 (W6 m ρ c)).trans ((b6_v1 m ρ c).trans (b5_v1 m ρ c))
theorem b9_v3 : W9 m ρ c (Proc.devRef .tc main_v3) = dstOf (F := Ideal) (A m c main_arg1) :=
  (Stretch.s2_keep_v3 (W6 m ρ c)).trans ((b6_v3 m ρ c).trans (b5_v3 m ρ c))
theorem b9_arg2 : W9 m ρ c (Proc.devRef .tc main_arg2) = (A m c main_arg2) :=
  (Stretch.s2_keep_arg2 (W6 m ρ c)).trans ((b6_arg2 m ρ c).trans (b5_arg2 m ρ c))

/-! ## Boundary 10: after launch 2 -/

theorem b10_o0 : W10 m ρ c (Proc.devRef .tc main_v132_0) = prod (X2 m c) (relW0 (F := Ideal) (A m c main_arg9)) :=
  (W10_arr m ρ c 5).trans ((Region2.final5 (V9 m ρ) c).trans (congrArg₂ prod (b9_x m ρ c) (b9_v126 m ρ c)))
theorem b10_o1 : W10 m ρ c (Proc.devRef .tc main_v132_1) = prod (X2 m c) (relW1 (F := Ideal) (A m c main_arg9)) :=
  (W10_arr m ρ c 6).trans ((Region2.final6 (V9 m ρ) c).trans (congrArg₂ prod (b9_x m ρ c) (b9_v129 m ρ c)))
theorem b10_o2 : W10 m ρ c (Proc.devRef .tc main_v132_2) = prodBias (X2 m c) (A m c main_arg10) (shapeCast S1x384 (A m c main_arg11) Facts₀.shapeCasts_S384_S1x384) :=
  (W10_arr m ρ c 7).trans ((Region2.final7 (V9 m ρ) c).trans
    (by rw [show V9 m ρ c main_v123 = X2 m c from b9_x m ρ c, show V9 m ρ c main_v130 = _ from b9_v130 m ρ c,
          show V9 m ρ c main_v131 = _ from b9_v131 m ρ c]; rfl))

theorem b10_v1 : W10 m ρ c (Proc.devRef .tc main_v1) = W9 m ρ c (Proc.devRef .tc main_v1) := W10_of_ne m ρ c main_v1 (by decide)
theorem b10_v3 : W10 m ρ c (Proc.devRef .tc main_v3) = W9 m ρ c (Proc.devRef .tc main_v3) := W10_of_ne m ρ c main_v3 (by decide)
theorem b10_arg2 : W10 m ρ c (Proc.devRef .tc main_arg2) = W9 m ρ c (Proc.devRef .tc main_arg2) := W10_of_ne m ρ c main_arg2 (by decide)

/-! ## The result -/

/-- The result buffer at the last boundary is the three-layer network of the launch arguments. -/
theorem result : W11 m ρ c (Proc.devRef .tc main_v182)
    = net (A m c main_arg0) (A m c main_arg1) (A m c main_arg2) (A m c main_arg3) (A m c main_arg4) (A m c main_arg5) (A m c main_arg6) (A m c main_arg7) (A m c main_arg8) (A m c main_arg9) (A m c main_arg10) (A m c main_arg11) :=
  (Stretch.s3_v182 (W10 m ρ c)).trans (by
    rw [b10_o0, b10_o1, b10_o2, b10_v1, b10_v3, b10_arg2, b9_v1, b9_v3, b9_arg2]; rfl)

end Cert.Rgcn.KernelValue

end
-- ==== Proof.RefValue.lean ====
/-
  The reference's result is the same three-layer network.

  The reference takes each product whole (one contraction over the 384 columns) and adds the bias broadcast over the
  rows; the rest of a layer is the shared mix of the three products with the edge list. So its run's result is the
  three layers with whole products (`refNet`, by reading the operations off in order), and on the extended reals a whole
  product's entry `(p, q)` is the sum over `k` of `x (p, k) * w (k, q)` — the same sum the row blocks leave — while the
  broadcast bias at `(p, q)` is the bias at `q`, which is also what the bias given a leading unit axis holds at `(0, q)`.
-/
import proofs.«109699_j90933047591155_1_alg».proof.Proof.Gen.ReferenceIdeal.Run
import proofs.«109699_j90933047591155_1_alg».proof.Proof.Spec
import Idealize.ShloMosaic.Lib.Pipeline.Value
import Idealize.ShloMosaic.Lib.ValueLayout

set_option maxRecDepth 16384

noncomputable section

namespace Cert.Rgcn.Ref

open Cert.KernelIdeal Cert.KernelIdeal.Facts₀ Cert.Rgcn
open Idealize.ShloMosaic Idealize.ShloMosaic.TcCoe Idealize.ShloMosaic.ValueIdx Idealize.SL.Sem

section Generic

variable {F : FTy → Type} [FloatOps F]

/-- One layer with whole products, as the reference writes it. -/
def refLayer (x : (⟨S50000x384, .f32⟩ : BufTy).Contents (Elt F)) (W : (⟨S2x384x384, .f32⟩ : BufTy).Contents (Elt F))
    (root : (⟨S384x384, .f32⟩ : BufTy).Contents (Elt F)) (bias : (⟨S384, .f32⟩ : BufTy).Contents (Elt F))
    (ei : (⟨S2x200000, .i32⟩ : BufTy).Contents (Elt F)) (et : (⟨S200000, .i32⟩ : BufTy).Contents (Elt F)) :
    (⟨S50000x384, .f32⟩ : BufTy).Contents (Elt F) :=
  mix (Host.dotGeneral (φ₁ := .f32) (φ₂ := .f32) Cert.ReferenceIdeal.dot_S50000x384_S384x384_S50000x384_1_0_0_1_n_n none x (relW0 W))
    (Host.dotGeneral (φ₁ := .f32) (φ₂ := .f32) Cert.ReferenceIdeal.dot_S50000x384_S384x384_S50000x384_1_0_0_1_n_n none x (relW1 W))
    (addf (Host.dotGeneral (φ₁ := .f32) (φ₂ := .f32) Cert.ReferenceIdeal.dot_S50000x384_S384x384_S50000x384_1_0_0_1_n_n none x root)
      (broadcastInDim S50000x384 ![0, 1] Cert.ReferenceIdeal.Facts₀.bcast_S1x384_S50000x384_0_1
        (broadcastInDim S1x384 ![1] Cert.ReferenceIdeal.Facts₀.bcast_S384_S1x384_1 bias)))
    (srcOf ei) (dstOf ei) et

/-- The three layers, a rectifier after the first and after the second. -/
def refNet (x : (⟨S50000x384, .f32⟩ : BufTy).Contents (Elt F)) (ei : (⟨S2x200000, .i32⟩ : BufTy).Contents (Elt F)) (et : (⟨S200000, .i32⟩ : BufTy).Contents (Elt F))
    (W1 : (⟨S2x384x384, .f32⟩ : BufTy).Contents (Elt F)) (root1 : (⟨S384x384, .f32⟩ : BufTy).Contents (Elt F)) (bias1 : (⟨S384, .f32⟩ : BufTy).Contents (Elt F))
    (W2 : (⟨S2x384x384, .f32⟩ : BufTy).Contents (Elt F)) (root2 : (⟨S384x384, .f32⟩ : BufTy).Contents (Elt F)) (bias2 : (⟨S384, .f32⟩ : BufTy).Contents (Elt F))
    (W3 : (⟨S2x384x384, .f32⟩ : BufTy).Contents (Elt F)) (root3 : (⟨S384x384, .f32⟩ : BufTy).Contents (Elt F)) (bias3 : (⟨S384, .f32⟩ : BufTy).Contents (Elt F)) :
    (⟨S50000x384, .f32⟩ : BufTy).Contents (Elt F) :=
  refLayer (rect (refLayer (rect (refLayer x W1 root1 bias1 ei et)) W2 root2 bias2 ei et)) W3 root3 bias3 ei et

/-- The reference run's result term is the three layers with whole products: the operations read off in order. -/
theorem res_eq (m : (ℓ : Loc Cert.ReferenceIdeal.nD Cert.ReferenceIdeal.τ Cert.ReferenceIdeal.sig) → Buf (Elt F) ℓ) (c : Dev Cert.ReferenceIdeal.nD) :
    Cert.ReferenceIdeal.Value.res_main_v185 m c
      = refNet (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) := by
  unfold Cert.ReferenceIdeal.Value.res_main_v185
  rfl

end Generic

/-! ## On the extended reals -/

/-- A whole product, entry by entry. -/
theorem dot_eq_prod (x : (⟨S50000x384, .f32⟩ : BufTy).Contents (Elt Ideal)) (w : (⟨S384x384, .f32⟩ : BufTy).Contents (Elt Ideal)) :
    Host.dotGeneral (F := Ideal) (φ₁ := .f32) (φ₂ := .f32) Cert.ReferenceIdeal.dot_S50000x384_S384x384_S50000x384_1_0_0_1_n_n none x w = prod x w := by
  funext j
  obtain ⟨p, q, rfl⟩ : ∃ (p : Fin 50000) (q : Fin 384), j = ix2 p q := ⟨j 0, j 1, eq_ix2 j⟩
  exact PlainDot.dotGeneral_apply Cert.ReferenceIdeal.dot_S50000x384_S384x384_S50000x384_1_0_0_1_n_n rfl none .single x w p q

/-- The bias broadcast over the rows, at `(p, q)`, is the bias with a leading unit axis at `(0, q)`. -/
theorem bias_at (bias : (⟨S384, .f32⟩ : BufTy).Contents (Elt Ideal)) (p : Fin 50000) (q : Fin 384) :
    broadcastInDim S50000x384 ![0, 1] Cert.ReferenceIdeal.Facts₀.bcast_S1x384_S50000x384_0_1
        (broadcastInDim S1x384 ![1] Cert.ReferenceIdeal.Facts₀.bcast_S384_S1x384_1 bias) (ix2 p q)
      = shapeCast S1x384 bias shapeCasts_S384_S1x384 (ix2 (0 : Fin 1) q) := by
  refine (broadcastInDim_apply ![0, 1] Cert.ReferenceIdeal.Facts₀.bcast_S1x384_S50000x384_0_1 _ (ix2 p q) (ix2 (0 : Fin 1) q) fun a => ?_).trans ?_
  · match a with
    | ⟨0, _⟩ => rfl
    | ⟨1, _⟩ => rfl
  · refine (broadcastInDim_apply ![1] Cert.ReferenceIdeal.Facts₀.bcast_S384_S1x384_1 bias (ix2 (0 : Fin 1) q) (ix1 q) fun a => ?_).trans ?_
    · match a with
      | ⟨0, _⟩ => rfl
    · exact (shapeCast_a_1a_apply bias shapeCasts_S384_S1x384 (0 : Fin 1) q).symm

/-- The root product plus the broadcast bias, entry by entry. -/
theorem rootBias_eq (x : (⟨S50000x384, .f32⟩ : BufTy).Contents (Elt Ideal)) (root : (⟨S384x384, .f32⟩ : BufTy).Contents (Elt Ideal))
    (bias : (⟨S384, .f32⟩ : BufTy).Contents (Elt Ideal)) :
    addf (Host.dotGeneral (F := Ideal) (φ₁ := .f32) (φ₂ := .f32) Cert.ReferenceIdeal.dot_S50000x384_S384x384_S50000x384_1_0_0_1_n_n none x root)
        (broadcastInDim S50000x384 ![0, 1] Cert.ReferenceIdeal.Facts₀.bcast_S1x384_S50000x384_0_1
          (broadcastInDim S1x384 ![1] Cert.ReferenceIdeal.Facts₀.bcast_S384_S1x384_1 bias))
      = prodBias x root (shapeCast S1x384 bias shapeCasts_S384_S1x384) := by
  rw [dot_eq_prod]
  funext j
  obtain ⟨p, q, rfl⟩ : ∃ (p : Fin 50000) (q : Fin 384), j = ix2 p q := ⟨j 0, j 1, eq_ix2 j⟩
  refine (addf_apply _ _ _).trans ?_
  rw [bias_at]
  rfl

/-- A layer with whole products is the layer with the products taken entry by entry. -/
theorem refLayer_eq (x : (⟨S50000x384, .f32⟩ : BufTy).Contents (Elt Ideal)) (W : (⟨S2x384x384, .f32⟩ : BufTy).Contents (Elt Ideal))
    (root : (⟨S384x384, .f32⟩ : BufTy).Contents (Elt Ideal)) (bias : (⟨S384, .f32⟩ : BufTy).Contents (Elt Ideal))
    (ei : (⟨S2x200000, .i32⟩ : BufTy).Contents (Elt Ideal)) (et : (⟨S200000, .i32⟩ : BufTy).Contents (Elt Ideal)) :
    refLayer (F := Ideal) x W root bias ei et = layer x W root bias ei et := by
  unfold refLayer layer
  rw [dot_eq_prod, dot_eq_prod, rootBias_eq]

/-- The reference's network is the kernel's. -/
theorem refNet_eq (x : (⟨S50000x384, .f32⟩ : BufTy).Contents (Elt Ideal)) (ei : (⟨S2x200000, .i32⟩ : BufTy).Contents (Elt Ideal)) (et : (⟨S200000, .i32⟩ : BufTy).Contents (Elt Ideal))
    (W1 : (⟨S2x384x384, .f32⟩ : BufTy).Contents (Elt Ideal)) (root1 : (⟨S384x384, .f32⟩ : BufTy).Contents (Elt Ideal)) (bias1 : (⟨S384, .f32⟩ : BufTy).Contents (Elt Ideal))
    (W2 : (⟨S2x384x384, .f32⟩ : BufTy).Contents (Elt Ideal)) (root2 : (⟨S384x384, .f32⟩ : BufTy).Contents (Elt Ideal)) (bias2 : (⟨S384, .f32⟩ : BufTy).Contents (Elt Ideal))
    (W3 : (⟨S2x384x384, .f32⟩ : BufTy).Contents (Elt Ideal)) (root3 : (⟨S384x384, .f32⟩ : BufTy).Contents (Elt Ideal)) (bias3 : (⟨S384, .f32⟩ : BufTy).Contents (Elt Ideal)) :
    refNet (F := Ideal) x ei et W1 root1 bias1 W2 root2 bias2 W3 root3 bias3 = net x ei et W1 root1 bias1 W2 root2 bias2 W3 root3 bias3 := by
  unfold refNet net
  rw [refLayer_eq, refLayer_eq, refLayer_eq]

end Cert.Rgcn.Ref

end
-- ==== Proof.lean ====
/-
  Three layers of a relational graph convolution with mean aggregation, the kernel against its reference.

  Each layer is `x · root + bias + Σ_r mean over the edges of relation r into a node of (x · W r)[source]`, with a rectifier
  after the first two layers. The kernel takes the three products of a layer in one launch, 2000 rows of `x` at a time
  against the whole weight matrices (their float format changed on the way, which is the identity on the extended
  reals), and adds the bias row inside the launch; the reference takes each product whole and adds the broadcast bias.
  Entry `(p, q)` of a product is the sum over `k < 384` of `x (p, k) * w (k, q)` either way — the 25 row blocks tile the 50000
  rows —, so the three arrays a layer's aggregation starts from are equal, and the aggregation itself (mask, row gather,
  scatter-add, count, quotient, sums) is the same composition of operations on both sides, never opened here. No
  algebraic law beyond reading a contraction as a sum is used, so the inputs' finiteness is not needed.

  The frames are the generated ones (the reference's is its generated run with the result dropped); the ideal pass
  rewrote nothing, so the idealization is the program's own text.
-/
import proofs.«109699_j90933047591155_1_alg».proof.Defs
import proofs.«109699_j90933047591155_1_alg».proof.Proof.Gen.Kernel
import proofs.«109699_j90933047591155_1_alg».proof.Proof.Gen.Kernel.Frame
import proofs.«109699_j90933047591155_1_alg».proof.Proof.Gen.KernelIdeal
import proofs.«109699_j90933047591155_1_alg».proof.Proof.Gen.KernelIdeal.Frame
import proofs.«109699_j90933047591155_1_alg».proof.Proof.Gen.ReferenceIdeal
import proofs.«109699_j90933047591155_1_alg».proof.Proof.Gen.Pre_finite_inputs
import proofs.«109699_j90933047591155_1_alg».proof.Proof.Gen.ReferenceIdeal.Run
import proofs.«109699_j90933047591155_1_alg».proof.Proof.KernelRun
import proofs.«109699_j90933047591155_1_alg».proof.Proof.KernelValue
import proofs.«109699_j90933047591155_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Rgcn

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the three-layer network of the (agreeing) arguments in their result buffer. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (KernelValue.result m ρ c), (h c).2⟩) (KernelRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Ref.res_eq m' c, Ref.refNet_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
